-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x200 : Shape := ⟨2, ![10000, 200]⟩
abbrev S200 : Shape := ⟨1, ![200]⟩
abbrev S200x128 : Shape := ⟨2, ![200, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x200 : S_.BroadcastsInDim S10000x200 (![] : Fin 0 → Fin S10000x200.rank)
  reducesTo_S10000x200_S_d0_1 : S10000x200.ReducesTo [0, 1] S_
  bcast_S_S200 : S_.BroadcastsInDim S200 (![] : Fin 0 → Fin S200.rank)
  reducesTo_S200_S_d0 : S200.ReducesTo [0] S_
  bcast_S_S200x128 : S_.BroadcastsInDim S200x128 (![] : Fin 0 → Fin S200x128.rank)
  reducesTo_S200x128_S_d0_1 : S200x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S200x128 .f32) (main_arg5 : FVec F S128 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S200x128 .f32 := Host.absf main_arg4
  let main_cst_6 : FVec F S_ .f32 := constant S_ .f32 0x7F800000#32
  let main_v20 : FVec F S200x128 .f32 := broadcastInDim S200x128 ![] bcast_S_S200x128 main_cst_6
  let main_v21 : IVec S200x128 1 := cmpf .olt main_v19 main_v20
  let main_c_7 : IVec S_ 1 := constantI S_ 1 1#1
  let main_v22 : IVec S_ 1 := (fun x v => Host.reduce IntOp.andi x v reducesTo_S200x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x10000 .f32) (main_arg1 : FVec F S10000x10000 .f32) (main_arg2 : FVec F S10000x200 .f32) (main_arg3 : FVec F S200 .f32) (main_arg4 : FVec F S200x128 .f32) (main_arg5 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x200 .f32 := Host.absf main_arg2
  let main_cst_2 : FVec F S_ .f32 := constant S_ .f32 0x7F800000#32
  let main_v10 : FVec F S10000x200 .f32 := broadcastInDim S10000x200 ![] bcast_S_S10000x200 main_cst_2
  let main_v11 : IVec S10000x200 1 := cmpf .olt main_v9 main_v10
  let main_c_3 : IVec S_ 1 := constantI S_ 1 1#1
  let main_v12 : IVec S_ 1 := (fun x v => Host.reduce IntOp.andi x v reducesTo_S10000x200_S_d0_1 h_S_) main_v11 main_c_3
  let main_v13 : IVec S_ 1 := andi main_v8 main_v12
  let main_v14 : FVec F S200 .f32 := Host.absf main_arg3
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg4 main_arg5 main_v13 main_v16
-- ==== Kernel.lean ====
abbrev S10000x10000 : Shape := ⟨2, ![10000, 10000]⟩
abbrev S10000x200 : Shape := ⟨2, ![10000, 200]⟩
abbrev S200 : Shape := ⟨1, ![200]⟩
abbrev S200x128 : Shape := ⟨2, ![200, 128]⟩
abbrev S128 : Shape := ⟨1, ![128]⟩
abbrev S10000x1 : Shape := ⟨2, ![10000, 1]⟩
abbrev S200x10000 : Shape := ⟨2, ![200, 10000]⟩
abbrev S200x1 : Shape := ⟨2, ![200, 1]⟩
abbrev S200x200 : Shape := ⟨2, ![200, 200]⟩
abbrev S1x200 : Shape := ⟨2, ![1, 200]⟩
abbrev S10000x128 : Shape := ⟨2, ![10000, 128]⟩
abbrev S1x128 : Shape := ⟨2, ![1, 128]⟩

abbrev nBuf : Space → Nat
  | .hbm => 12
  | .vmem => 26
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x200, .f32⟩
  | .hbm, ⟨3, _⟩ => ⟨S200, .f32⟩
  | .hbm, ⟨4, _⟩ => ⟨S200x128, .f32⟩
  | .hbm, ⟨5, _⟩ => ⟨S128, .f32⟩
  | .hbm, ⟨6, _⟩ => ⟨S10000x1, .f32⟩
  | .hbm, ⟨7, _⟩ => ⟨S10000x200, .f32⟩
  | .hbm, ⟨8, _⟩ => ⟨S1x200, .f32⟩
  | .hbm, ⟨9, _⟩ => ⟨S10000x128, .f32⟩
  | .hbm, ⟨10, _⟩ => ⟨S1x128, .f32⟩
  | .hbm, ⟨11, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x200, .f32⟩
  | .local _ .vmem, ⟨5, _⟩ => ⟨S200x1, .f32⟩
  | .local _ .vmem, ⟨6, _⟩ => ⟨S200x1, .f32⟩
  | .local _ .vmem, ⟨7, _⟩ => ⟨S200x200, .f32⟩
  | .local _ .vmem, ⟨8, _⟩ => ⟨S200x200, .f32⟩
  | .local _ .vmem, ⟨9, _⟩ => ⟨S200x10000, .f32⟩
  | .local _ .vmem, ⟨10, _⟩ => ⟨S200x10000, .f32⟩
  | .local _ .vmem, ⟨11, _⟩ => ⟨S10000x200, .f32⟩
  | .local _ .vmem, ⟨12, _⟩ => ⟨S200x1, .f32⟩
  | .local _ .vmem, ⟨13, _⟩ => ⟨S200x1, .f32⟩
  | .local _ .vmem, ⟨14, _⟩ => ⟨S1x200, .f32⟩
  | .local _ .vmem, ⟨15, _⟩ => ⟨S200x128, .f32⟩
  | .local _ .vmem, ⟨16, _⟩ => ⟨S200x128, .f32⟩
  | .local _ .vmem, ⟨17, _⟩ => ⟨S200x128, .f32⟩
  | .local _ .vmem, ⟨18, _⟩ => ⟨S200x10000, .f32⟩
  | .local _ .vmem, ⟨19, _⟩ => ⟨S200x10000, .f32⟩
  | .local _ .vmem, ⟨20, _⟩ => ⟨S10000x128, .f32⟩
  | .local _ .vmem, ⟨21, _⟩ => ⟨S200x1, .f32⟩
  | .local _ .vmem, ⟨22, _⟩ => ⟨S200x1, .f32⟩
  | .local _ .vmem, ⟨23, _⟩ => ⟨S1x128, .f32⟩
  | .local _ .vmem, ⟨24, _⟩ => ⟨S200x128, .f32⟩
  | .local _ .vmem, ⟨25, _⟩ => ⟨S200x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def k1_off1 (i : grid1.Coords) : Fin 2 → Nat :=
  let arg0 : BitVec 32 := BitVec.ofNat 32 (i 0).val
  let c200_i32 : BitVec 32 := 200#32
  let v4 : BitVec 32 := Scalar.muli arg0 c200_i32
  let v5 : Index := Scalar.indexCast v4
  let c0_3 : Index := 0#32
  ![v5.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x200 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S200x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S200x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def k2_off1 (i : grid2.Coords) : Fin 2 → Nat :=
  let arg0 : BitVec 32 := BitVec.ofNat 32 (i 0).val
  let c200_i32 : BitVec 32 := 200#32
  let v4 : BitVec 32 := Scalar.muli arg0 c200_i32
  let v5 : Index := Scalar.indexCast v4
  let c0_3 : Index := 0#32
  ![v5.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S200x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S200x10000_S200x10000_0_0 : ∀ a, (![0, 0] : Fin 2 → Nat) a + S200x10000.size a ≤ S200x10000.size a
  h_S200x10000 : 0 < S200x10000.numel
  reduces_S200x10000_S200 : S200x10000.Reduces [1] S200
  shapeCasts_S200_S200x1 : S200.ShapeCasts S200x1
  inb_S200x1_S200x1_0_0 : ∀ a, (![0, 0] : Fin 2 → Nat) a + S200x1.size a ≤ S200x1.size a
  h_S200x1 : 0 < S200x1.numel
  inb_S10000x200_S10000x200_0_0 : ∀ a, (![0, 0] : Fin 2 → Nat) a + S10000x200.size a ≤ S10000x200.size a
  h_S10000x200 : 0 < S10000x200.numel
  broadcasts_S200x1_S200x200 : S200x1.Broadcasts S200x200
  inb_S200x200_S200x200_0_0 : ∀ a, (![0, 0] : Fin 2 → Nat) a + S200x200.size a ≤ S200x200.size a
  h_S200x200 : 0 < S200x200.numel
  shapeCasts_S200_S1x200 : S200.ShapeCasts S1x200
  shapeCasts_S10000x200_S10000x200 : S10000x200.ShapeCasts S10000x200
  shapeCasts_S200x200_S200x200 : S200x200.ShapeCasts S200x200
  shapeCasts_S200x1_S200x1 : S200x1.ShapeCasts S200x1
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S200x200 : S1x200.Broadcasts S200x200
  inb_S200x128_S200x128_0_0 : ∀ a, (![0, 0] : Fin 2 → Nat) a + S200x128.size a ≤ S200x128.size a
  h_S200x128 : 0 < S200x128.numel
  broadcasts_S200x1_S200x128 : S200x1.Broadcasts S200x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S200x128_S200x128 : S200x128.ShapeCasts S200x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  reduces_S200x128_S200 : S200x128.Reduces [1] S200
  dot_S200x10000_S10000x200_S200x200_1_0_0_1_n_n_wf : DotDims.WF S200x10000 S10000x200 S200x200 [1] [0] [0] [1] [] []
  dot_S200x200_S200x128_S200x128_1_0_0_1_n_n_wf : DotDims.WF S200x200 S200x128 S200x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x200.size a ≤ S10000x200.size a
  hwx0_2 : ∀ i : grid0.Coords, EltTy.bits .f32 = 32 ∨ (Rect.block (s := S10000x200) S10000x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x1.size a ≤ S10000x1.size a
  hwx0_3 : ∀ i : grid0.Coords, EltTy.bits .f32 = 32 ∨ (Rect.block (s := S10000x1) S200x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x200.size a ≤ S10000x200.size a
  hwx0_4 : ∀ i : grid0.Coords, EltTy.bits .f32 = 32 ∨ (Rect.block (s := S10000x200) S200x200.size (cc0_transform_4 i) (hinb0_4 i)).WholeWords (EltTy.packing .f32)
  hrank1 : 0 < grid1.rank
  k1_off1_inb : ∀ i : grid1.Coords, ∀ a, (k1_off1 i) a + S200x200.size a ≤ S10000x200.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x200.size a ≤ S10000x200.size a
  hwx1_1 : ∀ i : grid1.Coords, EltTy.bits .f32 = 32 ∨ (Rect.block (s := S10000x200) S10000x200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x1.size a ≤ S10000x1.size a
  hwx1_2 : ∀ i : grid1.Coords, EltTy.bits .f32 = 32 ∨ (Rect.block (s := S10000x1) S200x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x200.size a ≤ S1x200.size a
  hwx1_3 : ∀ i : grid1.Coords, EltTy.bits .f32 = 32 ∨ (Rect.block (s := S1x200) S1x200.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S200x128.size a ≤ S200x128.size a
  hwx1_4 : ∀ i : grid1.Coords, EltTy.bits .f32 = 32 ∨ (Rect.block (s := S200x128) S200x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x128.size a ≤ S10000x128.size a
  hwx1_5 : ∀ i : grid1.Coords, EltTy.bits .f32 = 32 ∨ (Rect.block (s := S10000x128) S200x128.size (cc1_transform_5 i) (hinb1_5 i)).WholeWords (EltTy.packing .f32)
  hrank2 : 0 < grid2.rank
  k2_off1_inb : ∀ i : grid2.Coords, ∀ a, (k2_off1 i) a + S200x128.size a ≤ S10000x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x1.size a ≤ S10000x1.size a
  hwx2_2 : ∀ i : grid2.Coords, EltTy.bits .f32 = 32 ∨ (Rect.block (s := S10000x1) S200x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S200x128.size a ≤ S10000x128.size a
  hwx2_4 : ∀ i : grid2.Coords, EltTy.bits .f32 = 32 ∨ (Rect.block (s := S10000x128) S200x128.size (cc2_transform_4 i) (hinb2_4 i)).WholeWords (EltTy.packing .f32)

variable [Facts₀]

def dot_S200x10000_S10000x200_S200x200_1_0_0_1_n_n : DotDims S200x10000 S10000x200 S200x200 where
  lhsContracting := [1]
  rhsContracting := [0]
  lhsNonContracting := [0]
  rhsNonContracting := [1]
  lhsBatch := []
  rhsBatch := []
  wf := dot_S200x10000_S10000x200_S200x200_1_0_0_1_n_n_wf
def dot_S200x200_S200x128_S200x128_1_0_0_1_n_n : DotDims S200x200 S200x128 S200x128 where
  lhsContracting := [1]
  rhsContracting := [0]
  lhsNonContracting := [0]
  rhsNonContracting := [1]
  lhsBatch := []
  rhsBatch := []
  wf := dot_S200x200_S200x128_S200x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S200x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S200x200.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S10000x200.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S200x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x200.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S200x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S200x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0_0) S200x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S200x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x10000 : Shape := ⟨2, ![10000, 10000]⟩
abbrev S10000x200 : Shape := ⟨2, ![10000, 200]⟩
abbrev S200 : Shape := ⟨1, ![200]⟩
abbrev S200x128 : Shape := ⟨2, ![200, 128]⟩
abbrev S128 : Shape := ⟨1, ![128]⟩
abbrev S10000 : Shape := ⟨1, ![10000]⟩
abbrev S_ : Shape := ⟨0, ![]⟩
abbrev S10000x1 : Shape := ⟨2, ![10000, 1]⟩
abbrev S10000x2 : Shape := ⟨2, ![10000, 2]⟩
abbrev S1x10000 : Shape := ⟨2, ![1, 10000]⟩
abbrev S1x200 : Shape := ⟨2, ![1, 200]⟩
abbrev S10000x128 : Shape := ⟨2, ![10000, 128]⟩
abbrev S1x128 : Shape := ⟨2, ![1, 128]⟩

abbrev nBuf : Space → Nat
  | .hbm => 66
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x200, .f32⟩
  | .hbm, ⟨3, _⟩ => ⟨S200, .f32⟩
  | .hbm, ⟨4, _⟩ => ⟨S200x128, .f32⟩
  | .hbm, ⟨5, _⟩ => ⟨S128, .f32⟩
  | .hbm, ⟨6, _⟩ => ⟨S10000, .i32⟩
  | .hbm, ⟨7, _⟩ => ⟨S_, .i32⟩
  | .hbm, ⟨8, _⟩ => ⟨S10000, .i32⟩
  | .hbm, ⟨9, _⟩ => ⟨S10000, .i1⟩
  | .hbm, ⟨10, _⟩ => ⟨S_, .i32⟩
  | .hbm, ⟨11, _⟩ => ⟨S10000, .i32⟩
  | .hbm, ⟨12, _⟩ => ⟨S10000, .i32⟩
  | .hbm, ⟨13, _⟩ => ⟨S10000, .i32⟩
  | .hbm, ⟨14, _⟩ => ⟨S_, .i32⟩
  | .hbm, ⟨15, _⟩ => ⟨S10000, .i32⟩
  | .hbm, ⟨16, _⟩ => ⟨S10000, .i1⟩
  | .hbm, ⟨17, _⟩ => ⟨S_, .i32⟩
  | .hbm, ⟨18, _⟩ => ⟨S10000, .i32⟩
  | .hbm, ⟨19, _⟩ => ⟨S10000, .i32⟩
  | .hbm, ⟨20, _⟩ => ⟨S10000, .i32⟩
  | .hbm, ⟨21, _⟩ => ⟨S10000x1, .i32⟩
  | .hbm, ⟨22, _⟩ => ⟨S10000x1, .i32⟩
  | .hbm, ⟨23, _⟩ => ⟨S10000x2, .i32⟩
  | .hbm, ⟨24, _⟩ => ⟨S_, .f32⟩
  | .hbm, ⟨25, _⟩ => ⟨S10000, .f32⟩
  | .hbm, ⟨26, _⟩ => ⟨S10000x10000, .f32⟩
  | .hbm, ⟨27, _⟩ => ⟨S_, .f32⟩
  | .hbm, ⟨28, _⟩ => ⟨S10000, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S10000, .f32⟩
  | .hbm, ⟨33, _⟩ => ⟨S10000x1, .f32⟩
  | .hbm, ⟨34, _⟩ => ⟨S10000x10000, .f32⟩
  | .hbm, ⟨35, _⟩ => ⟨S10000x10000, .f32⟩
  | .hbm, ⟨36, _⟩ => ⟨S1x10000, .f32⟩
  | .hbm, ⟨37, _⟩ => ⟨S10000x10000, .f32⟩
  | .hbm, ⟨38, _⟩ => ⟨S10000x10000, .f32⟩
  | .hbm, ⟨39, _⟩ => ⟨S10000x200, .f32⟩
  | .hbm, ⟨40, _⟩ => ⟨S10000x200, .f32⟩
  | .hbm, ⟨41, _⟩ => ⟨S1x200, .f32⟩
  | .hbm, ⟨42, _⟩ => ⟨S10000x200, .f32⟩
  | .hbm, ⟨43, _⟩ => ⟨S10000x200, .f32⟩
  | .hbm, ⟨44, _⟩ => ⟨S_, .f32⟩
  | .hbm, ⟨45, _⟩ => ⟨S10000x200, .f32⟩
  | .hbm, ⟨46, _⟩ => ⟨S10000x200, .f32⟩
  | .hbm, ⟨47, _⟩ => ⟨S10000x128, .f32⟩
  | .hbm, ⟨48, _⟩ => ⟨S10000x128, .f32⟩
  | .hbm, ⟨49, _⟩ => ⟨S1x128, .f32⟩
  | .hbm, ⟨50, _⟩ => ⟨S10000x128, .f32⟩
  | .hbm, ⟨51, _⟩ => ⟨S10000x128, .f32⟩
  | .hbm, ⟨52, _⟩ => ⟨S_, .f32⟩
  | .hbm, ⟨53, _⟩ => ⟨S10000, .f32⟩
  | .hbm, ⟨54, _⟩ => ⟨S_, .f32⟩
  | .hbm, ⟨55, _⟩ => ⟨S10000, .f32⟩
  | .hbm, ⟨56, _⟩ => ⟨S10000, .f32⟩
  | .hbm, ⟨57, _⟩ => ⟨S10000x1, .f32⟩
  | .hbm, ⟨58, _⟩ => ⟨S10000x128, .f32⟩
  | .hbm, ⟨59, _⟩ => ⟨S10000x128, .f32⟩
  | .hbm, ⟨60, _⟩ => ⟨S10000x128, .f32⟩
  | .hbm, ⟨61, _⟩ => ⟨S_, .f32⟩
  | .hbm, ⟨62, _⟩ => ⟨S10000, .f32⟩
  | .hbm, ⟨63, _⟩ => ⟨S10000x1, .f32⟩
  | .hbm, ⟨64, _⟩ => ⟨S10000x128, .f32⟩
  | .hbm, ⟨65, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  concatenates_S10000x1_S10000x1_S10000x2_d1 : Shape.Concatenates [S10000x1, S10000x1] S10000x2 1
  reducesTo_S10000x10000_S10000_d1 : S10000x10000.ReducesTo [1] S10000
  h_S_ : 0 < S_.numel
  bcast_S10000x1_S10000x10000_0_1 : S10000x1.BroadcastsInDim S10000x10000 (![0, 1] : Fin 2 → Fin S10000x10000.rank)
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)
  bcast_S200_S1x200_1 : S200.BroadcastsInDim S1x200 (![1] : Fin 1 → Fin S1x200.rank)
  bcast_S1x200_S10000x200_0_1 : S1x200.BroadcastsInDim S10000x200 (![0, 1] : Fin 2 → Fin S10000x200.rank)
  bcast_S_S10000x200 : S_.BroadcastsInDim S10000x200 (![] : Fin 0 → Fin S10000x200.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  bcast_S10000x1_S10000x128_0_1 : S10000x1.BroadcastsInDim S10000x128 (![0, 1] : Fin 2 → Fin S10000x128.rank)
  scatter_S10000x10000_S10000x2_S10000_n_01_01_1_wf : ScatterDims.WF S10000x10000 S10000x2 S10000 [] [0, 1] [0, 1] 1
  dot_S10000x10000_S10000x200_S10000x200_1_0_0_1_n_n_wf : DotDims.WF S10000x10000 S10000x200 S10000x200 [1] [0] [0] [1] [] []
  dot_S10000x200_S200x128_S10000x128_1_0_0_1_n_n_wf : DotDims.WF S10000x200 S200x128 S10000x128 [1] [0] [0] [1] [] []
  dot_S10000x10000_S10000x128_S10000x128_1_0_0_1_n_n_wf : DotDims.WF S10000x10000 S10000x128 S10000x128 [1] [0] [0] [1] [] []

variable [Facts₀]

def scatter_S10000x10000_S10000x2_S10000_n_01_01_1 : ScatterDims S10000x10000 S10000x2 S10000 where
  updateWindowDims := []
  insertedWindowDims := [0, 1]
  scatterDimsToOperandDims := [0, 1]
  indexVectorDim := 1
  wf := scatter_S10000x10000_S10000x2_S10000_n_01_01_1_wf
def dot_S10000x10000_S10000x200_S10000x200_1_0_0_1_n_n : DotDims S10000x10000 S10000x200 S10000x200 where
  lhsContracting := [1]
  rhsContracting := [0]
  lhsNonContracting := [0]
  rhsNonContracting := [1]
  lhsBatch := []
  rhsBatch := []
  wf := dot_S10000x10000_S10000x200_S10000x200_1_0_0_1_n_n_wf
def dot_S10000x200_S200x128_S10000x128_1_0_0_1_n_n : DotDims S10000x200 S200x128 S10000x128 where
  lhsContracting := [1]
  rhsContracting := [0]
  lhsNonContracting := [0]
  rhsNonContracting := [1]
  lhsBatch := []
  rhsBatch := []
  wf := dot_S10000x200_S200x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.GcnSpec.lean ====
/-
  A two-layer graph convolution over a dense adjacency matrix with symmetric degree normalisation, as functions of
  `Fin` coordinates over the extended reals.

  With `Â = A + I`, `deg i = Σ_j Â i j` and `d i = (max (deg i) ε)^(-1/2)`, the normalised adjacency is
  `N i j = Â i j · d i · d j`, the hidden layer `H = max (N·(X·W₁) + b₁) 0`, and the result the row-wise softmax of
  `N·(H·W₂) + b₂`.

  Two arrangements of this one function are stated here.
  * The *aggregated* arrangement never forms `N`: it keeps the node factor `s i = (max ((Σ_j A i j) + 1) ε)^(-1/2)`,
    pre-scales the features' rows (`Z = (X·W₁)·s`), aggregates over the raw adjacency with the self loop added as a
    separate term (`A·Z + Z`), and scales the rows again.
  * The *normalised* arrangement forms `Â` (a one added on the diagonal), its row sums, `N`, and multiplies by `N`.
  They agree when every entry is a real number, because a real factor distributes over a finite sum of reals; on the
  extended reals in general they need not (`0 · ⊤`, `⊤ + ⊥`).
-/
import Idealize.ShloMosaic.PureOps.Ideal
import Idealize.ShloMosaic.Lib.ValueIdx

noncomputable section

namespace Cert.Gcn

open Idealize.ShloMosaic Idealize.ShloMosaic.ValueIdx

/-- A matrix of extended reals by row and column. -/
abbrev Mat (a b : ℕ) := Fin a → Fin b → EReal
/-- A vector of extended reals. -/
abbrev Col (a : ℕ) := Fin a → EReal

/-- The single-precision word of the number one. -/
def one : EReal := Ideal.ofBits .f32 0x3F800000#32
/-- The single-precision word nearest to 10⁻¹²: the floor under a degree before its inverse square root. -/
def eps : EReal := Ideal.ofBits .f32 0x2B8CBCCC#32
/-- The single-precision word of minus infinity: where a running maximum starts. -/
def negInf : EReal := Ideal.ofBits .f32 0xFF800000#32

/-- A rank-2 array read by row and column. -/
def mat {a b : ℕ} (x : (⟨2, ![a, b]⟩ : Shape).Idx → EReal) : Mat a b := fun p q => x (ix2 p q)
/-- A rank-1 array read by position. -/
def col {a : ℕ} (x : (⟨1, ![a]⟩ : Shape).Idx → EReal) : Col a := fun p => x (ix1 p)
/-- A matrix as a rank-2 array. -/
def arr2 {a b : ℕ} (M : Mat a b) : (⟨2, ![a, b]⟩ : Shape).Idx → EReal := fun i => M (i 0) (i 1)

variable {n h o c : ℕ}

/-- The matrix product. -/
def mm {a b d : ℕ} (L : Mat a b) (R : Mat b d) : Mat a d := fun i k => ∑ j, L i j * R j k

/-- The inverse square root of a degree held at or above `eps`. -/
def scale (deg : Col n) : Col n := fun i => Ideal.rsqrt (max (deg i) eps)

/-- Row-wise softmax: each entry's exponential, shifted by the row's maximum, over the row's sum of them. -/
def rowMax (L : Mat n o) : Col n := fun i => (Finset.univ : Finset (Fin o)).fold max negInf (L i)
def softmax (L : Mat n o) : Mat n o := fun i q =>
  Ideal.div (Ideal.exp (L i q - rowMax L i)) (∑ q', Ideal.exp (L i q' - rowMax L i))

/-! ## The aggregated arrangement -/

/-- The degree with the self loop counted apart: the row sum of the raw adjacency, plus one. -/
def degK (A : Mat n n) : Col n := fun i => (∑ j, A i j) + one
/-- The node factor. -/
def sK (A : Mat n n) : Col n := scale (degK A)
/-- Rows of the transformed features pre-scaled by the node factor. -/
def z1K (X A : Mat n n) (W1 : Mat n h) : Mat n h := fun j k => mm X W1 j k * sK A j
/-- One aggregation: neighbours' rows summed over the raw adjacency, the node's own row added, the result scaled
    by the node factor `s`. -/
def agg (A : Mat n n) (s : Col n) (Z : Mat n c) : Mat n c := fun i k => (mm A Z i k + Z i k) * s i
/-- The hidden layer from pre-scaled features `Z1`. -/
def hid (A : Mat n n) (s : Col n) (Z1 : Mat n h) (b1 : Col h) : Mat n h := fun i k => max (agg A s Z1 i k + b1 k) 0
/-- The hidden layer, transformed by the second weights and pre-scaled for the second aggregation. -/
def layer1 (A : Mat n n) (s : Col n) (Z1 : Mat n h) (b1 : Col h) (W2 : Mat h o) : Mat n o :=
  fun i q => mm (hid A s Z1 b1) W2 i q * s i
/-- The second aggregation's logits from pre-scaled `Z2`. -/
def logits2 (A : Mat n n) (s : Col n) (Z2 : Mat n o) (b2 : Col o) : Mat n o := fun i q => agg A s Z2 i q + b2 q
/-- The second aggregation and the softmax. -/
def layer2 (A : Mat n n) (s : Col n) (Z2 : Mat n o) (b2 : Col o) : Mat n o := softmax (logits2 A s Z2 b2)
/-- The logits of the aggregated arrangement. -/
def logitK (X A : Mat n n) (W1 : Mat n h) (b1 : Col h) (W2 : Mat h o) (b2 : Col o) : Mat n o :=
  logits2 A (sK A) (layer1 A (sK A) (z1K X A W1) b1 W2) b2
/-- The aggregated arrangement. -/
def outK (X A : Mat n n) (W1 : Mat n h) (b1 : Col h) (W2 : Mat h o) (b2 : Col o) : Mat n o :=
  layer2 A (sK A) (layer1 A (sK A) (z1K X A W1) b1 W2) b2

/-! ## The normalised arrangement -/

/-- The adjacency with a one added on the diagonal. -/
def selfLoop (A : Mat n n) : Mat n n := fun i j => A i j + (if i = j then one else 0)
/-- Its row sums. -/
def degR (A : Mat n n) : Col n := fun i => ∑ j, selfLoop A i j
/-- The node factor from them. -/
def dR (A : Mat n n) : Col n := scale (degR A)
/-- The normalised adjacency. -/
def normAdj (A : Mat n n) : Mat n n := fun i j => selfLoop A i j * dR A i * dR A j
/-- The hidden layer. -/
def hidR (X A : Mat n n) (W1 : Mat n h) (b1 : Col h) : Mat n h :=
  fun i k => max (mm (normAdj A) (mm X W1) i k + b1 k) 0
/-- The logits. -/
def logitR (X A : Mat n n) (W1 : Mat n h) (b1 : Col h) (W2 : Mat h o) (b2 : Col o) : Mat n o :=
  fun i q => mm (normAdj A) (mm (hidR X A W1 b1) W2) i q + b2 q
/-- The normalised arrangement. -/
def outR (X A : Mat n n) (W1 : Mat n h) (b1 : Col h) (W2 : Mat h o) (b2 : Col o) : Mat n o :=
  softmax (logitR X A W1 b1 W2 b2)

/-- An extended real that is a real number. -/
def IsReal (x : EReal) : Prop := ∃ r : ℝ, x = (r : EReal)

end Cert.Gcn

end
-- ==== Proof.LibRealValued.lean ====
/-
  Extended reals that are real numbers, and arrays of them.

  At the exact instance a float is an extended real. Most algebraic laws that a
  kernel and its reference differ by (here: how a log-sum-exp shift is
  re-associated) hold for real numbers and fail at an infinity, so a value proof
  first has to know that the numbers it meets are real. This module fixes the
  predicate `IsReal x` ("x is the coercion of a real"), its array form
  `AllReal v`, and their closure under the exact operations: sums, differences,
  products, finite sums, maxima over a nonempty finite set, the reciprocal of a
  nonzero real, the reciprocal square root of a positive real and the exponential.

  It also holds the one law used at the end: for a real `m`,
  `a - (m + L) = (a - m) - L` for ALL extended reals `a` and `L`. (For `m = ⊤`
  the two sides differ: with `L = ⊥` the left is `⊤` and the right `⊥`.)
-/
import Mathlib
import Idealize.ShloMosaic.PureOps.Ideal
import Idealize.ShloMosaic.PureOps.Ideal.Laws

noncomputable section

namespace Cert.RealValued

open Idealize.ShloMosaic

/-- `x` is a real number (neither infinity). -/
def IsReal (x : EReal) : Prop := ∃ r : ℝ, x = (r : EReal)

/-- `x` is a positive real number. -/
def IsPos (x : EReal) : Prop := ∃ r : ℝ, 0 < r ∧ x = (r : EReal)

theorem IsPos.isReal {x : EReal} (h : IsPos x) : IsReal x := let ⟨r, _, e⟩ := h; ⟨r, e⟩

theorem isReal_coe (r : ℝ) : IsReal (r : EReal) := ⟨r, rfl⟩
theorem isReal_zero : IsReal (0 : EReal) := ⟨0, by simp⟩
theorem isReal_one : IsReal (1 : EReal) := ⟨1, by simp⟩
theorem isPos_one : IsPos (1 : EReal) := ⟨1, one_pos, by simp⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem isReal_max {x y : EReal} (hx : IsReal x) (hy : IsReal y) : IsReal (max x y) := by
  rcases le_total x y with h | h
  · rwa [max_eq_right h]
  · rwa [max_eq_left h]

/-- A finite sum of real numbers is a real number. -/
theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A sum of a nonnegative real and finitely many nonnegative reals, plus a positive real, is positive: stated
    in the one form used (a count of ones plus one). -/
theorem IsPos.add_of_nonneg {x y : EReal} (hx : ∃ r : ℝ, 0 ≤ r ∧ x = (r : EReal)) (hy : IsPos y) : IsPos (x + y) := by
  obtain ⟨a, ha, rfl⟩ := hx; obtain ⟨b, hb, rfl⟩ := hy
  exact ⟨a + b, by linarith, (EReal.coe_add a b).symm⟩

/-- A finite sum of ones, from zero, is a nonnegative real. -/
theorem nonneg_zero_add_sum_one {ι : Type} (s : Finset ι) :
    ∃ r : ℝ, 0 ≤ r ∧ (0 : EReal) + ∑ _i ∈ s, (1 : EReal) = (r : EReal) := by
  refine ⟨(s.card : ℝ), Nat.cast_nonneg _, ?_⟩
  rw [Finset.sum_const, zero_add]
  simp [nsmul_eq_mul]

/-- The maximum of `⊥` and the values of a real-valued function over a NONEMPTY finite set is a real number. -/
theorem isReal_fold_max {ι : Type} (s : Finset ι) (f : ι → EReal) (hs : s.Nonempty) (h : ∀ i ∈ s, IsReal (f i)) :
    IsReal (s.fold max ⊥ f) := by
  classical
  induction s using Finset.induction_on with
  | empty => exact absurd hs (by simp)
  | insert a s ha ih =>
    rw [Finset.fold_insert ha]
    rcases s.eq_empty_or_nonempty with hse | hsn
    · subst hse
      rw [Finset.fold_empty, max_eq_left bot_le]
      exact h a (Finset.mem_insert_self a _)
    · exact isReal_max (h a (Finset.mem_insert_self a s)) (ih hsn fun i hi => h i (Finset.mem_insert_of_mem hi))

/-- The reciprocal square root of a positive real is a positive real. -/
theorem IsPos.rsqrt {x : EReal} (hx : IsPos x) : IsPos (Ideal.rsqrt x) := by
  obtain ⟨r, hr, rfl⟩ := hx
  refine ⟨(Real.sqrt r)⁻¹, inv_pos.mpr (Real.sqrt_pos.mpr hr), ?_⟩
  rw [Ideal.rsqrt_coe, if_neg (not_lt.mpr hr.le), if_neg hr.ne']

/-- One over a positive real is a real. -/
theorem IsPos.one_div {x : EReal} (hx : IsPos x) : IsReal (Ideal.div 1 x) := by
  obtain ⟨r, hr, rfl⟩ := hx
  rw [Ideal.div_coe hr.ne']
  exact isReal_one.mul (isReal_coe _)

/-- The exponential of a real is a real. -/
theorem IsReal.exp {x : EReal} (hx : IsReal x) : IsReal (Ideal.exp x) := by
  obtain ⟨r, rfl⟩ := hx; exact ⟨Real.exp r, Ideal.exp_coe r⟩

/-- The pattern of `-∞` denotes the bottom element. -/
theorem ofBits_neg_inf : Ideal.ofBits .f32 0xFF800000#32 = ⊥ := by simp [Ideal.ofBits, Ideal.ieee]

/-- THE LAW that joins the two spellings of a log-softmax: a REAL shift `m` moves across the difference,
    whatever `a` and `L` are. -/
theorem sub_add_real (a L : EReal) (m : ℝ) : a - ((m : EReal) + L) = (a - (m : EReal)) - L := by
  rw [sub_eq_add_neg, sub_eq_add_neg, sub_eq_add_neg,
    EReal.neg_add (Or.inl (EReal.coe_ne_bot m)) (Or.inl (EReal.coe_ne_top m)), sub_eq_add_neg, add_assoc]

/-- Every entry of the array is a real number. -/
def AllReal {ι : Type} (v : ι → EReal) : Prop := ∀ i, IsReal (v i)

/-- Every entry of the array is a positive real number. -/
def AllPos {ι : Type} (v : ι → EReal) : Prop := ∀ i, IsPos (v i)

theorem AllPos.allReal {ι : Type} {v : ι → EReal} (h : AllPos v) : AllReal v := fun i => (h i).isReal

/-- Reading a real-valued array through any index function gives a real-valued array (a broadcast, a reshape, a
    slice, a gather: each result element IS one operand element). -/
theorem AllReal.comp {ι κ : Type} {v : ι → EReal} (h : AllReal v) (g : κ → ι) : AllReal (fun j => v (g j)) :=
  fun j => h (g j)

theorem AllPos.comp {ι κ : Type} {v : ι → EReal} (h : AllPos v) (g : κ → ι) : AllPos (fun j => v (g j)) :=
  fun j => h (g j)

end Cert.RealValued

end
-- ==== Proof.GcnAlgebra.lean ====
/-
  The aggregated and the normalised arrangement of the two-layer graph convolution agree on real-valued data.

  Both arrangements use the same node factor: adding a one on the diagonal and then summing a row is the row sum plus
  one. With a real node factor `s`, a real adjacency `A` and real features `M`,
  `Σ_j ((A i j + δ_ij) · s i · s j) · M j k = ((Σ_j A i j · (M j k · s j)) + M i k · s i) · s i`,
  which is distributivity of a real factor over a finite sum of reals. Used once per layer it turns the one
  arrangement into the other.
-/
import Mathlib
import proofs.«114447_g24318104830572_cont_9to1_452_2_alg».proof.Proof.GcnSpec
import proofs.«114447_g24318104830572_cont_9to1_452_2_alg».proof.Proof.LibRealValued
import Idealize.ShloMosaic.PureOps.Ideal
import Idealize.ShloMosaic.PureOps.Ideal.Laws

noncomputable section

namespace Cert.Gcn

open Idealize.ShloMosaic Cert.RealValued

variable {n h o c : ℕ}

/-! ## The two constants -/

/-- The word `0x3F800000` has exponent field 127 and an empty fraction: `2^23 · 2^(127 - 127 - 23) = 1`. -/
theorem one_eq : one = 1 := by
  simp [one, Ideal.ofBits, Ideal.ieee]
  rw [← EReal.coe_mul, ← EReal.coe_one]
  congr 1
  norm_num

/-- The word `0x2B8CBCCC` has a zero sign bit and exponent field 87, neither 0 nor 255: a positive normal number. -/
theorem eps_pos : ∃ r : ℝ, 0 < r ∧ eps = (r : EReal) := by
  simp [eps, Ideal.ofBits, Ideal.ieee]
  exact ⟨_, by positivity, (EReal.coe_mul _ _).symm⟩

/-! ## Real numbers inside the extended reals -/

/-- The two spellings of "is a real number" are one definition. -/
theorem isReal_iff {x : EReal} : Cert.Gcn.IsReal x ↔ Cert.RealValued.IsReal x := Iff.rfl

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of a real and a positive real is a positive real. -/
theorem isPos_max {x y : EReal} (hx : Cert.RealValued.IsReal x) (hy : IsPos y) : IsPos (max x y) := by
  obtain ⟨a, rfl⟩ := hx
  obtain ⟨b, hb, rfl⟩ := hy
  rcases le_total (a : EReal) (b : EReal) with hab | hab
  · rw [max_eq_right hab]; exact ⟨b, hb, rfl⟩
  · rw [max_eq_left hab]; exact ⟨a, lt_of_lt_of_le hb (EReal.coe_le_coe_iff.mp hab), rfl⟩

/-- A product of two real-valued matrices is real-valued. -/
theorem isReal_mm {a b d : ℕ} {L : Mat a b} {R : Mat b d}
    (hL : ∀ i j, Cert.RealValued.IsReal (L i j)) (hR : ∀ j k, Cert.RealValued.IsReal (R j k)) (i : Fin a) (k : Fin d) :
    Cert.RealValued.IsReal (mm L R i k) :=
  IsReal.sum _ _ fun j _ => (hL i j).mul (hR j k)

/-! ## One node factor -/

/-- Summing a row after a one was added on its diagonal entry is adding one to the row's sum. -/
theorem degR_eq_degK (A : Mat n n) : degR A = degK A := by
  funext i
  simp only [degR, degK, selfLoop]
  rw [Finset.sum_add_distrib, Finset.sum_ite_eq]
  simp

/-- Hence the two arrangements scale by the same node factor. -/
theorem dR_eq_sK (A : Mat n n) : dR A = sK A := by
  unfold dR sK
  rw [degR_eq_degK]

/-- The node factor of a real adjacency is a positive real: the degree is real, its maximum with the positive
    floor is positive, and the inverse square root of a positive real is a positive real. -/
theorem sK_pos (A : Mat n n) (hA : ∀ i j, Cert.RealValued.IsReal (A i j)) (i : Fin n) : IsPos (sK A i) := by
  have hdeg : Cert.RealValued.IsReal (degK A i) :=
    (IsReal.sum _ _ fun j _ => hA i j).add (one_eq ▸ isReal_one)
  exact (isPos_max hdeg eps_pos).rsqrt

/-! ## The aggregation identity -/

/-- Over the reals: the row of the normalised adjacency against `M` is the aggregation of the pre-scaled `M`. -/
theorem real_agg {c : ℕ} (a : Fin n → Fin n → ℝ) (σ : Fin n → ℝ) (m : Fin n → Fin c → ℝ) (i : Fin n) (k : Fin c) :
    ∑ j, ((a i j + if i = j then 1 else 0) * σ i * σ j) * m j k
      = ((∑ j, a i j * (m j k * σ j)) + m i k * σ i) * σ i := by
  have hterm : ∀ j, ((a i j + if i = j then 1 else 0) * σ i * σ j) * m j k
      = a i j * (m j k * σ j) * σ i + (if i = j then m j k * σ j * σ i else 0) := by
    intro j
    split_ifs <;> ring
  rw [Finset.sum_congr rfl fun j _ => hterm j, Finset.sum_add_distrib, Finset.sum_ite_eq, if_pos (Finset.mem_univ i),
    add_mul, Finset.sum_mul]

/-- The same on the extended reals, for real-valued `A`, `s` and `M`. -/
theorem mm_normAdj_eq_agg {c : ℕ} (A : Mat n n) (M : Mat n c)
    (hA : ∀ i j, Cert.RealValued.IsReal (A i j)) (hM : ∀ j k, Cert.RealValued.IsReal (M j k)) :
    mm (normAdj A) M = agg A (sK A) (fun j k => M j k * sK A j) := by
  choose a ha using hA
  choose m hm using hM
  choose σ hσ using fun i => (sK_pos A (fun i j => ⟨a i j, ha i j⟩) i).isReal
  funext i k
  simp only [mm, normAdj, agg, selfLoop, dR_eq_sK, one_eq, ha, hm, hσ]
  have hite : ∀ j, (if i = j then (1 : EReal) else 0) = ((if i = j then (1 : ℝ) else 0 : ℝ) : EReal) := by
    intro j
    split_ifs <;> simp
  simp only [hite, ← EReal.coe_add, ← EReal.coe_mul, ← coe_sum]
  exact congrArg _ (real_agg a σ m i k)

/-! ## The two layers -/

section layers

variable (X A : Mat n n) (W1 : Mat n h) (b1 : Col h) (W2 : Mat h o) (b2 : Col o)

/-- The hidden layers agree. -/
theorem hid_eq_hidR (hX : ∀ i j, Cert.RealValued.IsReal (X i j)) (hA : ∀ i j, Cert.RealValued.IsReal (A i j))
    (hW1 : ∀ i j, Cert.RealValued.IsReal (W1 i j)) :
    hid A (sK A) (z1K X A W1) b1 = hidR X A W1 b1 := by
  funext i k
  simp only [hid, hidR]
  rw [mm_normAdj_eq_agg A (mm X W1) hA (isReal_mm hX hW1)]
  rfl

/-- The hidden layer is real-valued. -/
theorem isReal_hidR (hX : ∀ i j, Cert.RealValued.IsReal (X i j)) (hA : ∀ i j, Cert.RealValued.IsReal (A i j))
    (hW1 : ∀ i j, Cert.RealValued.IsReal (W1 i j)) (hb1 : ∀ k, Cert.RealValued.IsReal (b1 k)) (i : Fin n) (k : Fin h) :
    Cert.RealValued.IsReal (hidR X A W1 b1 i k) := by
  have hs : ∀ i, Cert.RealValued.IsReal (dR A i) := fun i => dR_eq_sK A ▸ (sK_pos A hA i).isReal
  have hone : Cert.RealValued.IsReal one := one_eq ▸ isReal_one
  have hN : ∀ i j, Cert.RealValued.IsReal (normAdj A i j) := by
    intro i j
    refine (IsReal.mul (IsReal.add (hA i j) ?_) (hs i)).mul (hs j)
    split_ifs
    · exact hone
    · exact isReal_zero
  exact isReal_max ((isReal_mm hN (isReal_mm hX hW1) i k).add (hb1 k)) isReal_zero

end layers

/-- The logits of the two arrangements agree on real-valued data. -/
theorem logitK_eq_logitR (X A : Mat n n) (W1 : Mat n h) (b1 : Col h) (W2 : Mat h o) (b2 : Col o)
    (hX : ∀ i j, IsReal (X i j)) (hA : ∀ i j, IsReal (A i j)) (hW1 : ∀ i j, IsReal (W1 i j)) (hb1 : ∀ k, IsReal (b1 k))
    (hW2 : ∀ i j, IsReal (W2 i j)) (hb2 : ∀ q, IsReal (b2 q)) :
    logitK X A W1 b1 W2 b2 = logitR X A W1 b1 W2 b2 := by
  funext i q
  simp only [logitK, logitR, logits2]
  rw [mm_normAdj_eq_agg A (mm (hidR X A W1 b1) W2) hA (isReal_mm (isReal_hidR X A W1 b1 hX hA hW1 hb1) hW2),
    ← hid_eq_hidR X A W1 b1 hX hA hW1]
  rfl

/-- So do the results: the softmax of equal logits. -/
theorem outK_eq_outR (X A : Mat n n) (W1 : Mat n h) (b1 : Col h) (W2 : Mat h o) (b2 : Col o)
    (hX : ∀ i j, IsReal (X i j)) (hA : ∀ i j, IsReal (A i j)) (hW1 : ∀ i j, IsReal (W1 i j)) (hb1 : ∀ k, IsReal (b1 k))
    (hW2 : ∀ i j, IsReal (W2 i j)) (hb2 : ∀ q, IsReal (b2 q)) :
    outK X A W1 b1 W2 b2 = outR X A W1 b1 W2 b2 :=
  congrArg softmax (logitK_eq_logitR X A W1 b1 W2 b2 hX hA hW1 hb1 hW2 hb2)

end Cert.Gcn

end
-- ==== Proof.FiniteArgs.lean ====
/-
  From "every float input is finite" to "every entry of every argument array is a real number".

  The precondition compares the absolute value of each entry with plus infinity, reduces each array of
  comparison bits by "and" over all its axes, and conjoins the six results. Read backwards: the conjunction
  being one makes each of the six reductions one; a reduction by "and" over all axes being one makes every
  comparison bit one; and for an extended real x, max x (-x) < +inf excludes both infinities, so x is real.
-/
import proofs.«114447_g24318104830572_cont_9to1_452_2_alg».proof.Defs
import proofs.«114447_g24318104830572_cont_9to1_452_2_alg».proof.Proof.Gen.Pre_finite_inputs
import proofs.«114447_g24318104830572_cont_9to1_452_2_alg».proof.Proof.GcnSpec
import Idealize.ShloMosaic.Lib.ReduceAll
import Idealize.ShloMosaic.Lib.ValueIdx
import Idealize.ShloMosaic.PureOps.Ideal.Laws

noncomputable section

namespace Cert.Gcn.FiniteArgs
open Idealize.ShloMosaic Idealize.ShloMosaic.TcCoe Idealize.SL.Sem Cert.Gcn

/-- An extended real whose absolute value is below plus infinity is a real number: at either infinity the
    absolute value max x (-x) is plus infinity itself. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The shape of a scalar has exactly one index. -/
instance : Subsingleton Cert.Pre_finite_inputs.S_.Idx := ⟨fun a b => funext fun d => d.elim0⟩

/-- One conjunct of the precondition, for an array of any shape: if the reduction by "and", over all axes, of the
    bits |x i| < +inf is one, every entry of x is a real number. -/
theorem all_finite_real {S : Shape}
    (hb : Cert.Pre_finite_inputs.S_.BroadcastsInDim S (![] : Fin 0 → Fin S.rank))
    {axes : List (Fin S.rank)} (hr : S.ReducesTo axes Cert.Pre_finite_inputs.S_)
    (hu : 0 < Cert.Pre_finite_inputs.S_.numel)
    (x : FVec Ideal S .f32)
    (e : Host.reduce IntOp.andi
          (cmpf .olt (Host.absf x)
            (broadcastInDim S ![] hb (constant (F := Ideal) Cert.Pre_finite_inputs.S_ .f32 0x7F800000#32)))
          (constantI Cert.Pre_finite_inputs.S_ 1 1#1) hr hu ValueIdx.ix0 = 1#1) :
    ∀ i, IsReal ((x : S.Idx → EReal) i) := by
  intro i
  have hi := Host.reduce_andi_all _ _ hr hu ValueIdx.ix0 e i
  exact isReal_of_abs_lt_inf (x i) hi

/-- An elementwise "and" of two arrays of bits that is one at an index is one in both arrays there. -/
theorem andi_at_eq_one {s : Shape} (a b : IVec s 1) (j : s.Idx) (h : andi a b j = 1#1) :
    a j = 1#1 ∧ b j = 1#1 :=
  IntOp.andi_eq_one.1 h

/-- Under the precondition every entry of each of the six argument arrays is a real number. -/
theorem args_real [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal ((m ((c.tc : Thread Cert.KernelIdeal.nD Cert.KernelIdeal.τ).loc Cert.KernelIdeal.main_arg0) : Cert.KernelIdeal.S10000x10000.Idx → EReal) i))
    ∧ (∀ i, IsReal ((m ((c.tc : Thread _ _).loc Cert.KernelIdeal.main_arg1) : Cert.KernelIdeal.S10000x10000.Idx → EReal) i))
    ∧ (∀ i, IsReal ((m ((c.tc : Thread _ _).loc Cert.KernelIdeal.main_arg2) : Cert.KernelIdeal.S10000x200.Idx → EReal) i))
    ∧ (∀ i, IsReal ((m ((c.tc : Thread _ _).loc Cert.KernelIdeal.main_arg3) : Cert.KernelIdeal.S200.Idx → EReal) i))
    ∧ (∀ i, IsReal ((m ((c.tc : Thread _ _).loc Cert.KernelIdeal.main_arg4) : Cert.KernelIdeal.S200x128.Idx → EReal) i))
    ∧ (∀ i, IsReal ((m ((c.tc : Thread _ _).loc Cert.KernelIdeal.main_arg5) : Cert.KernelIdeal.S128.Idx → EReal) i)) := by
  have h := congrFun (hpre c) ValueIdx.ix0
  dsimp only [Cert.Pre_finite_inputs.fn, Cert.Pre_finite_inputs.fn_part1] at h
  obtain ⟨h, h5⟩ := andi_at_eq_one _ _ _ h
  obtain ⟨h, h4⟩ := andi_at_eq_one _ _ _ h
  obtain ⟨h, h3⟩ := andi_at_eq_one _ _ _ h
  obtain ⟨h, h2⟩ := andi_at_eq_one _ _ _ h
  obtain ⟨h0, h1⟩ := andi_at_eq_one _ _ _ h
  exact ⟨all_finite_real _ _ _ _ h0, all_finite_real _ _ _ _ h1, all_finite_real _ _ _ _ h2,
    all_finite_real _ _ _ _ h3, all_finite_real _ _ _ _ h4, all_finite_real _ _ _ _ h5⟩

end Cert.Gcn.FiniteArgs
end
-- ==== Proof.KerRun.lean ====
/-
  The idealized kernel's run with its result named.

  The program is three grid launches with a reshape of a bias vector before the second and before the third. Its run is
  the launch over the program's segments that the generated frame also makes; the frame reads back only the argument
  arrays from the last thread state, and here the result array is read back as well: it ends at the contents the last
  launch's write-backs leave, `W5` at the result's buffer.
-/
import proofs.«114447_g24318104830572_cont_9to1_452_2_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at what the third
    launch's write-backs leave, and the six argument arrays end as launched. -/
theorem run_result : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.GcnRun

end
-- ==== Proof.KerFold.lean ====
/-
  The result array of the three launches as one function of the six argument arrays.

  The buffer contents at each boundary of the program are a fold from the launch memory: a launch leaves its output
  arrays at what its write-backs hold and every other buffer as it found it; a reshape writes its one result. Walking
  that fold back from the result: the third launch reads the adjacency (an argument, never written), the second
  launch's output, the first launch's node factors, and the second bias reshaped to a row; the second launch reads the
  adjacency, both outputs of the first launch, the first bias reshaped to a row, and the second weights; the first
  launch reads three arguments. Given what each launch's output array holds as a function of the arrays it reads
  (the three hypotheses), the result is the aggregated arrangement `outK` of the arguments.
-/
import proofs.«114447_g24318104830572_cont_9to1_452_2_alg».proof.Proof.Gen.KernelIdeal.Frame
import proofs.«114447_g24318104830572_cont_9to1_452_2_alg».proof.Proof.GcnSpec
import Idealize.ShloMosaic.Lib.Pipeline.Value
import Idealize.ShloMosaic.Lib.StableHlo.Run

noncomputable section

namespace Cert.KernelIdeal.GcnFold

open Cert.KernelIdeal Cert.KernelIdeal.Gen Cert.Gcn
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The two reshapes -/

/-- The reshape before the second launch writes only its own result. -/
theorem W2_of_ne (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The reshape before the third launch writes only its own result. -/
theorem W4_of_ne (c : Dev nD) (b : Ref sig .tc) (hb : b ≠ main_v3) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- A vector of length `a` reshaped to one row reads, at column `k`, the vector at `k`. -/
theorem row_of_vector {a : ℕ} (x : (⟨1, ![a]⟩ : Shape).Idx → EReal) (h : (⟨1, ![a]⟩ : Shape).ShapeCasts ⟨2, ![1, a]⟩)
    (k : Fin a) : shapeCast ⟨2, ![1, a]⟩ x h (ValueIdx.ix2 (0 : Fin 1) k) = x (ValueIdx.ix1 k) :=
  shapeCast_apply x h _ _ (by
    rw [Shape.rowMajor_val_two, Shape.rowMajor_val_one]
    show k.val = 0 * a + k.val
    omega)

/-! ## What the second launch finds -/

/-- The first bias reshaped to a row, as the second launch finds it: column `k` is the bias at `k`. -/
theorem V2_bias (c : Dev nD) (k : Fin 200) :
    (V2 m ρ c main_v1 : S1x200.Idx → EReal) (ValueIdx.ix2 (0 : Fin 1) k)
      = col (m ((c : Thread nD τ).loc main_arg3) : S200.Idx → EReal) k := by
  have e : (W2 m ρ c (Proc.devRef .tc main_v1) : S1x200.Idx → EReal)
      = shapeCast S1x200 (W1 m ρ c (Proc.devRef .tc main_arg3) : S200.Idx → EReal) shapeCasts_S200_S1x200 := by
    show StableHlo.after hostOps1 (W1 m ρ c) (Proc.devRef .tc main_v1) = _
    after_results
    rfl
  show (W2 m ρ c (Proc.devRef .tc main_v1) : S1x200.Idx → EReal) _ = _
  rw [e, row_of_vector, W1_of_ne m ρ c main_arg3 (by decide)]
  rfl

/-- The adjacency is an argument no launch writes: the second launch finds it as launched. -/
theorem V2_adj (c : Dev nD) : V2 m ρ c main_arg1 = m ((c : Thread nD τ).loc main_arg1) :=
  (W2_of_ne m ρ c main_arg1 (by decide)).trans
    ((W1_arr m ρ c 0).trans (((dat0 (V0 m ρ) c).arrAt_in 0 rfl _).trans (A_eq0 (V0 m ρ) c 0)))

/-- The second launch finds the first launch's pre-scaled features where the first launch's write-backs left them. -/
theorem V2_z1 (c : Dev nD) : V2 m ρ c main_v0_1 = (dat0 (V0 m ρ) c).arrAt 4 cfg0.N :=
  (W2_of_ne m ρ c main_v0_1 (by decide)).trans (W1_arr m ρ c 4)

/-- … and the node factors likewise. -/
theorem V2_s (c : Dev nD) : V2 m ρ c main_v0_0 = (dat0 (V0 m ρ) c).arrAt 3 cfg0.N :=
  (W2_of_ne m ρ c main_v0_0 (by decide)).trans (W1_arr m ρ c 3)

/-- The second weights are an argument nothing has written. -/
theorem V2_w2 (c : Dev nD) : V2 m ρ c main_arg4 = m ((c : Thread nD τ).loc main_arg4) :=
  (W2_of_ne m ρ c main_arg4 (by decide)).trans (W1_of_ne m ρ c main_arg4 (by decide))

/-! ## What the third launch finds -/

/-- The adjacency, as launched. -/
theorem V4_adj (c : Dev nD) : V4 m ρ c main_arg1 = m ((c : Thread nD τ).loc main_arg1) :=
  (W4_of_ne m ρ c main_arg1 (by decide)).trans
    ((W3_arr m ρ c 0).trans (((dat1 (V2 m ρ) c).arrAt_in 0 rfl _).trans ((A_eq1 (V2 m ρ) c 0).trans (V2_adj m ρ c))))

/-- The second launch's output, where its write-backs left it. -/
theorem V4_z2 (c : Dev nD) : V4 m ρ c main_v2 = (dat1 (V2 m ρ) c).arrAt 5 cfg1.N :=
  (W4_of_ne m ρ c main_v2 (by decide)).trans (W3_arr m ρ c 5)

/-- The node factors: the second launch only read them. -/
theorem V4_s (c : Dev nD) : V4 m ρ c main_v0_0 = (dat0 (V0 m ρ) c).arrAt 3 cfg0.N :=
  (W4_of_ne m ρ c main_v0_0 (by decide)).trans
    ((W3_arr m ρ c 2).trans (((dat1 (V2 m ρ) c).arrAt_in 2 rfl _).trans ((A_eq1 (V2 m ρ) c 2).trans (V2_s m ρ c))))

/-- The second bias reshaped to a row: column `q` is the bias at `q`. -/
theorem V4_bias (c : Dev nD) (q : Fin 128) :
    (V4 m ρ c main_v3 : S1x128.Idx → EReal) (ValueIdx.ix2 (0 : Fin 1) q)
      = col (m ((c : Thread nD τ).loc main_arg5) : S128.Idx → EReal) q := by
  have e : (W4 m ρ c (Proc.devRef .tc main_v3) : S1x128.Idx → EReal)
      = shapeCast S1x128 (W3 m ρ c (Proc.devRef .tc main_arg5) : S128.Idx → EReal) shapeCasts_S128_S1x128 := by
    show StableHlo.after hostOps2 (W3 m ρ c) (Proc.devRef .tc main_v3) = _
    after_results
    rfl
  show (W4 m ρ c (Proc.devRef .tc main_v3) : S1x128.Idx → EReal) _ = _
  rw [e, row_of_vector, W3_of_ne m ρ c main_arg5 (by decide), W2_of_ne m ρ c main_arg5 (by decide),
    W1_of_ne m ρ c main_arg5 (by decide)]
  rfl

/-! ## The result -/

/-- Reading a matrix's array back by row and column gives the matrix. -/
theorem mat_arr2 {a b : ℕ} (M : Mat a b) : mat (arr2 M) = M := rfl

/-- The result array is the aggregated arrangement of the six arguments, given what each launch's output arrays hold
    as functions of the arrays that launch reads. -/
theorem result_eq (c : Dev nD)
    (hs : ((dat0 (F := Ideal) (V0 m ρ) c).arrAt 3 cfg0.N : S10000x1.Idx → EReal)
      = fun i => sK (mat (V0 m ρ c main_arg1 : S10000x10000.Idx → EReal)) (i 0))
    (hz1 : ((dat0 (F := Ideal) (V0 m ρ) c).arrAt 4 cfg0.N : S10000x200.Idx → EReal)
      = arr2 (z1K (mat (V0 m ρ c main_arg0 : S10000x10000.Idx → EReal)) (mat (V0 m ρ c main_arg1 : S10000x10000.Idx → EReal))
          (mat (V0 m ρ c main_arg2 : S10000x200.Idx → EReal))))
    (hz2 : ((dat1 (F := Ideal) (V2 m ρ) c).arrAt 5 cfg1.N : S10000x128.Idx → EReal)
      = arr2 (layer1 (mat (V2 m ρ c main_arg1 : S10000x10000.Idx → EReal))
          (fun i => (V2 m ρ c main_v0_0 : S10000x1.Idx → EReal) (ValueIdx.ix2 i 0))
          (mat (V2 m ρ c main_v0_1 : S10000x200.Idx → EReal))
          (fun k => (V2 m ρ c main_v1 : S1x200.Idx → EReal) (ValueIdx.ix2 0 k))
          (mat (V2 m ρ c main_arg4 : S200x128.Idx → EReal))))
    (hout : ((dat2 (F := Ideal) (V4 m ρ) c).arrAt 4 cfg2.N : S10000x128.Idx → EReal)
      = arr2 (layer2 (mat (V4 m ρ c main_arg1 : S10000x10000.Idx → EReal))
          (fun i => (V4 m ρ c main_v0_0 : S10000x1.Idx → EReal) (ValueIdx.ix2 i 0))
          (mat (V4 m ρ c main_v2 : S10000x128.Idx → EReal))
          (fun q => (V4 m ρ c main_v3 : S1x128.Idx → EReal) (ValueIdx.ix2 0 q)))) :
    (W5 m ρ c (Proc.devRef .tc main_v4) : S10000x128.Idx → EReal)
      = arr2 (outK (mat (m ((c : Thread nD τ).loc main_arg0) : S10000x10000.Idx → EReal))
          (mat (m ((c : Thread nD τ).loc main_arg1) : S10000x10000.Idx → EReal))
          (mat (m ((c : Thread nD τ).loc main_arg2) : S10000x200.Idx → EReal))
          (col (m ((c : Thread nD τ).loc main_arg3) : S200.Idx → EReal))
          (mat (m ((c : Thread nD τ).loc main_arg4) : S200x128.Idx → EReal))
          (col (m ((c : Thread nD τ).loc main_arg5) : S128.Idx → EReal))) := by
  -- the first launch reads the launch memory
  have hX0 : (V0 m ρ c main_arg0 : S10000x10000.Idx → EReal) = m ((c : Thread nD τ).loc main_arg0) := rfl
  have hA0 : (V0 m ρ c main_arg1 : S10000x10000.Idx → EReal) = m ((c : Thread nD τ).loc main_arg1) := rfl
  have hW0 : (V0 m ρ c main_arg2 : S10000x200.Idx → EReal) = m ((c : Thread nD τ).loc main_arg2) := rfl
  rw [hA0] at hs
  rw [hX0, hA0, hW0] at hz1
  -- the node factors as the later launches find them
  have es2 : (fun i : Fin 10000 => (V2 m ρ c main_v0_0 : S10000x1.Idx → EReal) (ValueIdx.ix2 i 0))
      = sK (mat (m ((c : Thread nD τ).loc main_arg1) : S10000x10000.Idx → EReal)) := by
    funext i
    rw [show (V2 m ρ c main_v0_0 : S10000x1.Idx → EReal) = _ from V2_s m ρ c, hs]
    rfl
  have es4 : (fun i : Fin 10000 => (V4 m ρ c main_v0_0 : S10000x1.Idx → EReal) (ValueIdx.ix2 i 0))
      = sK (mat (m ((c : Thread nD τ).loc main_arg1) : S10000x10000.Idx → EReal)) := by
    funext i
    rw [show (V4 m ρ c main_v0_0 : S10000x1.Idx → EReal) = _ from V4_s m ρ c, hs]
    rfl
  -- the two biases as rows
  have eb1 : (fun k : Fin 200 => (V2 m ρ c main_v1 : S1x200.Idx → EReal) (ValueIdx.ix2 0 k))
      = col (m ((c : Thread nD τ).loc main_arg3) : S200.Idx → EReal) := funext fun k => V2_bias m ρ c k
  have eb2 : (fun q : Fin 128 => (V4 m ρ c main_v3 : S1x128.Idx → EReal) (ValueIdx.ix2 0 q))
      = col (m ((c : Thread nD τ).loc main_arg5) : S128.Idx → EReal) := funext fun q => V4_bias m ρ c q
  -- the second launch's output
  rw [es2, eb1, show (V2 m ρ c main_arg1 : S10000x10000.Idx → EReal) = _ from V2_adj m ρ c,
    show (V2 m ρ c main_v0_1 : S10000x200.Idx → EReal) = _ from V2_z1 m ρ c, hz1, mat_arr2,
    show (V2 m ρ c main_arg4 : S200x128.Idx → EReal) = _ from V2_w2 m ρ c] at hz2
  -- the third launch's output
  rw [es4, eb2, show (V4 m ρ c main_arg1 : S10000x10000.Idx → EReal) = _ from V4_adj m ρ c,
    show (V4 m ρ c main_v2 : S10000x128.Idx → EReal) = _ from V4_z2 m ρ c, hz2, mat_arr2] at hout
  exact (W5_arr m ρ c 4).trans hout

end Cert.KernelIdeal.GcnFold

end
-- ==== Proof.LibColumnForms.lean ====
/-
  Four matrix forms read at coordinates, for bodies that keep a reduced or sliced axis as a unit axis:
  a column [a, 1] and a single element [1, 1] broadcast to [a, b], a vector [a] cast to a column [a, 1], and the sum
  over the rows of an [a, b] matrix at the exact instance. Imports only the library.
-/
import Idealize.ShloMosaic.Lib.Pipeline.Value
import Idealize.ShloMosaic.Lib.ValueIdx
import Idealize.ShloMosaic.PureOps.Ideal.Laws

noncomputable section

open scoped BigOperators

namespace Cert.ColumnForms

open Idealize.ShloMosaic Idealize.ShloMosaic.ValueIdx

variable {α : Type}

/-- An [a, 1] column broadcast to [a, b] reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] matrix broadcast to [a, b] reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) :=
  broadcastTo_apply v h (ix2 p c) (ix2 (0 : Fin 1) (0 : Fin 1)) fun ax =>
    match ax with
    | ⟨0, _⟩ => rfl
    | ⟨1, _⟩ => rfl

/-- An [a] vector cast to an [a, 1] column reads, at (p, u), the vector at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum over the rows of an [a, b] matrix of extended reals, read at column q: the sum over the row index of the
    entries of that column. -/
theorem rowSum_apply {a b : ℕ} (src : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ)
    (q : Fin b) :
    multiReduction .add [0] ⟨1, ![b]⟩ src acc h hφ hacc (ix1 q) = ∑ i : Fin a, src (ix2 i q) :=
  (Ideal.multiReduction_add_single src acc h hφ hacc (ix1 q)).trans
    (Finset.sum_congr rfl fun i _ => congrArg src (funext fun c => Fin.ext (by
      match c with
      | ⟨0, _⟩ => rfl
      | ⟨1, _⟩ => rfl)))

end Cert.ColumnForms

end
-- ==== Proof.LibPlainDot.lean ====
/-
  A matrix product that contracts the left operand's columns with the right operand's rows, read at an output
  index: whatever record of dimension numbers spells it, once the record's operand indices are known coordinate
  by coordinate (row of the left operand = output row, column of the right operand = output column, the two
  contracted coordinates = the contraction index), the sum over the record's contraction index is the textbook
  sum over `k : Fin K` of `l (r, k) * r (k, c)`. Stated on the extended reals, where the sum is a sum in a
  commutative monoid and re-indexing along a bijection changes nothing.
-/
import Idealize.ShloMosaic.PureOps.Ideal.Laws
import Idealize.ShloMosaic.Lib.ValueIdx

noncomputable section

namespace Cert.PlainDot

open Idealize.ShloMosaic Idealize.ShloMosaic.ValueIdx

/-- The contraction of an `M×K` by `K×N` product at output index `j`, as a sum over `Fin K`. The hypotheses say
    what the record's two operand-index functions are, one coordinate each: they are what a concrete record
    gives by unfolding its lists of axes. -/
theorem sum_eq {M K N : ℕ} (d : DotDims ⟨2, ![M, K]⟩ ⟨2, ![K, N]⟩ ⟨2, ![M, N]⟩)
    (hr : d.contr.rank = 1) (hs : d.contr.size ⟨0, by omega⟩ = K)
    (hl0 : ∀ (j : (⟨2, ![M, N]⟩ : Shape).Idx) (q : d.contr.Idx), (d.lhsIdx j q 0).val = (j 0).val)
    (hl1 : ∀ (j : (⟨2, ![M, N]⟩ : Shape).Idx) (q : d.contr.Idx), (d.lhsIdx j q 1).val = (q ⟨0, by omega⟩).val)
    (hr0 : ∀ (j : (⟨2, ![M, N]⟩ : Shape).Idx) (q : d.contr.Idx), (d.rhsIdx j q 0).val = (q ⟨0, by omega⟩).val)
    (hr1 : ∀ (j : (⟨2, ![M, N]⟩ : Shape).Idx) (q : d.contr.Idx), (d.rhsIdx j q 1).val = (j 1).val)
    (lhs : (⟨2, ![M, K]⟩ : Shape).Idx → EReal) (rhs : (⟨2, ![K, N]⟩ : Shape).Idx → EReal)
    (j : (⟨2, ![M, N]⟩ : Shape).Idx) :
    ∑ q : d.contr.Idx, lhs (d.lhsIdx j q) * rhs (d.rhsIdx j q)
      = ∑ k : Fin K, lhs (ix2 ⟨(j 0).val, idx2_lt0 j⟩ k) * rhs (ix2 k ⟨(j 1).val, idx2_lt1 j⟩) := by
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 ⟨(j 0).val, idx2_lt0 j⟩ k :=
    funext fun a => Fin.ext (by
      match a with
      | ⟨0, _⟩ => exact hl0 _ _
      | ⟨1, _⟩ => exact (hl1 _ _).trans hk)
  have er : d.rhsIdx j ((contrEquiv1 d K hr hs).symm k) = ix2 k ⟨(j 1).val, idx2_lt1 j⟩ :=
    funext fun a => Fin.ext (by
      match a with
      | ⟨0, _⟩ => exact (hr0 _ _).trans hk
      | ⟨1, _⟩ => exact hr1 _ _)
  rw [el, er]

end Cert.PlainDot

end
-- ==== Proof.KerRegion0.lean ====
/-
  The first of the three passes over the row blocks of the adjacency, read as arrays.

  Point t of the grid holds rows 200 t … 200 t + 199. From the adjacency's row block it forms the node factor
  `s i = (max ((Σ_j A i j) + 1) ε)^(-1/2)` of each of its rows, and from the features' row block and the whole first
  weight matrix the rows `(Σ_e X i e · W₁ e k) · s i` of the pre-scaled transformed features. The blocks written back
  tile the two output arrays, so after the last point the arrays hold these two functions of the arguments, row by row.

  Below: the body's two stored values at a block coordinate; each input block as rows of its array; what a point
  writes back as a block of the whole-array function; the cover (row i is written by point i / 200); the two arrays.
-/
import proofs.«114447_g24318104830572_cont_9to1_452_2_alg».proof.Proof.Gen.KernelIdeal.Frame
import proofs.«114447_g24318104830572_cont_9to1_452_2_alg».proof.Proof.GcnSpec
import proofs.«114447_g24318104830572_cont_9to1_452_2_alg».proof.Proof.LibColumnForms
import proofs.«114447_g24318104830572_cont_9to1_452_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.GcnRegion0

open Cert.KernelIdeal Cert.KernelIdeal.Gen Cert.Gcn
open Idealize.ShloMosaic.ValueIdx

/-- The sum along the lanes of a [200, 10000] block, read at row r. -/
theorem laneSum_apply (a : FVec Ideal S200x10000 .f32) (acc : BitVec FTy.f32.bits) (h : S200x10000.Reduces [1] S200)
    (hφ : FKind.Formats .f32) (hacc : acc = FKind.add.neutral .f32 hφ) (r : Fin 200) :
    multiReduction .add [1] S200 a acc h hφ hacc (ix1 r) = ∑ j : Fin 10000, a (ix2 r j) :=
  (Ideal.multiReduction_add_single a acc h hφ hacc (ix1 r)).trans
    (Finset.sum_congr rfl fun j _ => congrArg a (funext fun c => Fin.ext (by
      match c with
      | ⟨0, _⟩ => rfl
      | ⟨1, _⟩ => rfl)))

/-- The node factor the body stores, at row r of its block: the inverse square root of the row sum of the adjacency
    block plus one, held at or above the floor. -/
theorem pay1_apply (a : Vec Ideal S200x10000 .f32) (r : Fin 200) (u : Fin 1) :
    k0_pay1 (F := Ideal) a (ix2 r u) = Ideal.rsqrt (max ((∑ j : Fin 10000, a (ix2 r j)) + one) eps) := by
  unfold k0_pay1
  refine congrArg (fun z => Ideal.rsqrt (max (z + one) eps)) ?_
  exact (Cert.ColumnForms.shapeCast_a_a1_apply _ shapeCasts_S200_S200x1 r u).trans (laneSum_apply a _ _ _ _ r)

/-- The body's matrix product into the zero accumulator, at (r, k): the sum over the contracted index. -/
theorem dot_sum (x : FVec Ideal S200x10000 .f32) (w : FVec Ideal S10000x200 .f32) (r : Fin 200) (k : Fin 200) :
    matmul (F := Ideal) dot_S200x10000_S10000x200_S200x200_1_0_0_1_n_n none x w (constant (F := Ideal) S200x200 .f32 0x00000000#32) (ix2 r k)
      = ∑ e : Fin 10000, x (ix2 r e) * w (ix2 e k) := by
  refine (Ideal.matmul_constant_zero_apply dot_S200x10000_S10000x200_S200x200_1_0_0_1_n_n none x w (ix2 r k)).trans ?_
  exact Cert.PlainDot.sum_eq dot_S200x10000_S10000x200_S200x200_1_0_0_1_n_n rfl rfl (fun _ _ => rfl) (fun _ _ => rfl) (fun _ _ => rfl) (fun _ _ => rfl) x w (ix2 r k)

/-- The pre-scaled features the body stores, at (r, k) of its block: the product of the feature block's row r with
    column k of the weights, times the node factor of row r. -/
theorem pay2_apply (a x : Vec Ideal S200x10000 .f32) (w : Vec Ideal S10000x200 .f32) (r : Fin 200) (k : Fin 200) :
    k0_pay2 (F := Ideal) a x w (ix2 r k)
      = (∑ e : Fin 10000, x (ix2 r e) * w (ix2 e k)) * Ideal.rsqrt (max ((∑ j : Fin 10000, a (ix2 r j)) + one) eps) := by
  unfold k0_pay2
  show matmul (F := Ideal) dot_S200x10000_S10000x200_S200x200_1_0_0_1_n_n none x w (constant (F := Ideal) S200x200 .f32 0x00000000#32) (ix2 r k)
      * broadcastTo S200x200 (k0_pay1 (F := Ideal) a) broadcasts_S200x1_S200x200 (ix2 r k) = _
  rw [dot_sum x w r k, Cert.ColumnForms.broadcastTo_a1_ab_apply _ broadcasts_S200x1_S200x200 r k, pay1_apply a r 0]

variable (V : (c : Dev nD) → (b : Ref sig .tc) → Buf (Elt Ideal) ((c : Thread nD τ).loc b))

theorem hz : (![0, 0] : Fin 2 → Nat) = fun _ => 0 := funext fun a => by fin_cases a <;> rfl

/-- The windows' block indices at point t: the two row-blocked inputs and the two outputs are at block row t, the
    weights at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The adjacency's block at point t is rows 200 t … 200 t + 199 of the adjacency. -/
theorem iblk_adj (c : Dev nD) (t : Fin cfg0.N) (y : S200x10000.Idx) (k : S10000x10000.Idx)
    (hk0 : (k 0).val = 200 * t.val + (y 0).val) (hk1 : (k 1).val = (y 1).val) :
    (iblk0 V c 0 t : Vec Ideal S200x10000 .f32) y = (V c main_arg1 : S10000x10000.Idx → EReal) k := by
  obtain ⟨e0, e1, -⟩ := idx_facts t
  unfold iblk0
  rw [View.read_apply]
  show V c main_arg1 _ = V c main_arg1 _
  congr 1
  funext a
  apply Fin.ext
  match a with
  | ⟨0, _⟩ => show win0_0.index t 0 * 200 + 1 * (y 0).val = (k 0).val; rw [e0, hk0]; omega
  | ⟨1, _⟩ => show win0_0.index t 1 * 10000 + 1 * (y 1).val = (k 1).val; rw [e1, hk1]; omega

/-- The features' block at point t is rows 200 t … 200 t + 199 of the features. -/
theorem iblk_feat (c : Dev nD) (t : Fin cfg0.N) (y : S200x10000.Idx) (k : S10000x10000.Idx)
    (hk0 : (k 0).val = 200 * t.val + (y 0).val) (hk1 : (k 1).val = (y 1).val) :
    (iblk0 V c 1 t : Vec Ideal S200x10000 .f32) y = (V c main_arg0 : S10000x10000.Idx → EReal) k := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 200 + 1 * (y 0).val = (k 0).val; rw [e0, hk0]; omega
  | ⟨1, _⟩ => show win0_1.index t 1 * 10000 + 1 * (y 1).val = (k 1).val; rw [e1, hk1]; omega

/-- The first weights' block at every point is the whole array. -/
theorem iblk_w1 (c : Dev nD) (t : Fin cfg0.N) (y k : S10000x200.Idx)
    (hk0 : (k 0).val = (y 0).val) (hk1 : (k 1).val = (y 1).val) :
    (iblk0 V c 2 t : Vec Ideal S10000x200 .f32) y = (V c main_arg2 : S10000x200.Idx → EReal) k := by
  obtain ⟨-, -, -, -, e0, e1, -⟩ := idx_facts t
  unfold iblk0
  rw [View.read_apply]
  show V c main_arg2 _ = V c main_arg2 _
  congr 1
  funext a
  apply Fin.ext
  match a with
  | ⟨0, _⟩ => show win0_2.index t 0 * 10000 + 1 * (y 0).val = (k 0).val; rw [e0, hk0]; omega
  | ⟨1, _⟩ => show win0_2.index t 1 * 200 + 1 * (y 1).val = (k 1).val; rw [e1, hk1]; omega

/-- The node factors as an array over [10000, 1]. -/
abbrev Gs (c : Dev nD) : S10000x1.Idx → EReal :=
  fun i => sK (mat (V c main_arg1 : S10000x10000.Idx → EReal)) (i 0)

/-- What point t writes back of the node factors is block t of `Gs`. -/
theorem flushed_s (c : Dev nD) (t : Fin cfg0.N) :
    (dat0 (F := Ideal) V c).flushed 3 t = ((cfg0.win 3).blk t).view.read (Elt Ideal) (Gs V c) := by
  show (cfg0.win 3).cut (grid0.coords t) ((dat0 V c).after 3 t) = _
  rw [after0_3]
  unfold out0_3
  rw [View.canon_unit_zero hz]
  simp only [View.ld_unit_zero (S := S200x10000) hz]
  funext y
  obtain ⟨p, u, rfl⟩ : ∃ (p : Fin 200) (u : Fin 1), y = ix2 p u := ⟨y 0, y 1, eq_ix2 y⟩
  rw [View.read_apply]
  have hrow : ((((cfg0.win 3).blk t).view.emb (ix2 p u)) 0).val = 200 * t.val + p.val := by
    show win0_3.index t 0 * 200 + 1 * p.val = _
    rw [(idx_facts t).2.2.2.2.2.2.1]; omega
  show k0_pay1 (F := Ideal) (iblk0 V c 0 t) (ix2 p u)
    = Ideal.rsqrt (max ((∑ j : Fin 10000, mat (V c main_arg1 : S10000x10000.Idx → EReal)
        ((((cfg0.win 3).blk t).view.emb (ix2 p u)) 0) j) + one) eps)
  refine (pay1_apply (iblk0 V c 0 t) p u).trans ?_
  refine congrArg (fun z => Ideal.rsqrt (max (z + one) eps)) (Finset.sum_congr rfl fun j _ => ?_)
  exact iblk_adj V c t (ix2 p j) (ix2 (n0 := 10000) ((((cfg0.win 3).blk t).view.emb (ix2 p u)) 0) j) hrow rfl

/-- The pre-scaled features as an array over [10000, 200]. -/
abbrev Gz (c : Dev nD) : S10000x200.Idx → EReal :=
  arr2 (z1K (mat (V c main_arg0 : S10000x10000.Idx → EReal)) (mat (V c main_arg1 : S10000x10000.Idx → EReal))
    (mat (V c main_arg2 : S10000x200.Idx → EReal)))

/-- What point t writes back of the pre-scaled features is block t of `Gz`. -/
theorem flushed_z1 (c : Dev nD) (t : Fin cfg0.N) :
    (dat0 (F := Ideal) V c).flushed 4 t = ((cfg0.win 4).blk t).view.read (Elt Ideal) (Gz V c) := by
  show (cfg0.win 4).cut (grid0.coords t) ((dat0 V c).after 4 t) = _
  rw [after0_4]
  unfold out0_4
  rw [View.canon_unit_zero hz]
  simp only [View.ld_unit_zero (S := S200x10000) hz, View.ld_unit_zero (S := S10000x200) hz]
  funext y
  obtain ⟨p, k, rfl⟩ : ∃ (p : Fin 200) (k : Fin 200), y = ix2 p k := ⟨y 0, y 1, eq_ix2 y⟩
  rw [View.read_apply]
  have hrow : ((((cfg0.win 4).blk t).view.emb (ix2 p k)) 0).val = 200 * t.val + p.val := by
    show win0_4.index t 0 * 200 + 1 * p.val = _
    rw [(idx_facts t).2.2.2.2.2.2.2.2.1]; omega
  have hcol : ((((cfg0.win 4).blk t).view.emb (ix2 p k)) 1).val = k.val := by
    show win0_4.index t 1 * 200 + 1 * k.val = _
    rw [(idx_facts t).2.2.2.2.2.2.2.2.2]; omega
  show k0_pay2 (F := Ideal) (iblk0 V c 0 t) (iblk0 V c 1 t) (iblk0 V c 2 t) (ix2 p k)
    = (∑ e : Fin 10000, mat (V c main_arg0 : S10000x10000.Idx → EReal) ((((cfg0.win 4).blk t).view.emb (ix2 p k)) 0) e
          * mat (V c main_arg2 : S10000x200.Idx → EReal) e ((((cfg0.win 4).blk t).view.emb (ix2 p k)) 1))
      * Ideal.rsqrt (max ((∑ j : Fin 10000, mat (V c main_arg1 : S10000x10000.Idx → EReal)
          ((((cfg0.win 4).blk t).view.emb (ix2 p k)) 0) j) + one) eps)
  refine (pay2_apply (iblk0 V c 0 t) (iblk0 V c 1 t) (iblk0 V c 2 t) p k).trans ?_
  refine congrArg₂ (fun a b : EReal => a * b) (Finset.sum_congr rfl fun e _ => ?_)
    (congrArg (fun z => Ideal.rsqrt (max (z + one) eps)) (Finset.sum_congr rfl fun j _ => ?_))
  · exact congrArg₂ (fun a b : EReal => a * b)
      (iblk_feat V c t (ix2 p e) (ix2 (n0 := 10000) ((((cfg0.win 4).blk t).view.emb (ix2 p k)) 0) e) hrow rfl)
      (iblk_w1 V c t (ix2 e k) (ix2 (n1 := 200) e ((((cfg0.win 4).blk t).view.emb (ix2 p k)) 1)) rfl hcol)
  · exact iblk_adj V c t (ix2 p j) (ix2 (n0 := 10000) ((((cfg0.win 4).blk t).view.emb (ix2 p k)) 0) j) hrow rfl

/-- An index of the node-factor array is in point t's block iff each coordinate is in the block's range. -/
theorem mem_blk_s (t : Fin cfg0.N) (i : S10000x1.Idx) :
    i ∈ ((cfg0.win 3).blk t).view.set ↔ ∀ a : Fin 2, win0_3.index t a * S200x1.size a ≤ (i a).val
      ∧ (i a).val < win0_3.index t a * S200x1.size a + S200x1.size a := by
  show i ∈ ((View.whole main_v0_0).slice (win0_3.rect t)).set ↔ _
  rw [View.set_slice_whole, Rect.mem_set_unit]
  exact Iff.rfl

/-- Row i of the node-factor array is written back by point i / 200. -/
theorem cover_s (i : S10000x1.Idx) :
    ∃ t : Fin cfg0.N, (cfg0.win 3).flush t = true ∧ i ∈ ((cfg0.win 3).blk t).view.set := by
  have h0 : (i 0).val < 10000 := (i 0).isLt
  have h1 : (i 1).val < 1 := (i 1).isLt
  have hN : cfg0.N = 50 := N_0
  obtain ⟨t, ht⟩ : ∃ t : Fin cfg0.N, t.val = (i 0).val / 200 := ⟨⟨(i 0).val / 200, by rw [hN]; omega⟩, rfl⟩
  obtain ⟨-, -, -, -, -, -, e0, e1, -⟩ := idx_facts t
  refine ⟨t, flush0_3 t, ?_⟩
  rw [mem_blk_s]
  intro a
  match a with
  | ⟨0, _⟩ =>
    show win0_3.index t 0 * 200 ≤ (i 0).val ∧ (i 0).val < win0_3.index t 0 * 200 + 200
    rw [e0, ht]; omega
  | ⟨1, _⟩ =>
    show win0_3.index t 1 * 1 ≤ (i 1).val ∧ (i 1).val < win0_3.index t 1 * 1 + 1
    rw [e1]; omega

/-- An index of the pre-scaled features is in point t's block iff each coordinate is in the block's range. -/
theorem mem_blk_z1 (t : Fin cfg0.N) (i : S10000x200.Idx) :
    i ∈ ((cfg0.win 4).blk t).view.set ↔ ∀ a : Fin 2, win0_4.index t a * S200x200.size a ≤ (i a).val
      ∧ (i a).val < win0_4.index t a * S200x200.size a + S200x200.size a := by
  show i ∈ ((View.whole main_v0_1).slice (win0_4.rect t)).set ↔ _
  rw [View.set_slice_whole, Rect.mem_set_unit]
  exact Iff.rfl

/-- Row i of the pre-scaled features is written back by point i / 200. -/
theorem cover_z1 (i : S10000x200.Idx) :
    ∃ t : Fin cfg0.N, (cfg0.win 4).flush t = true ∧ i ∈ ((cfg0.win 4).blk t).view.set := by
  have h0 : (i 0).val < 10000 := (i 0).isLt
  have h1 : (i 1).val < 200 := (i 1).isLt
  have hN : cfg0.N = 50 := N_0
  obtain ⟨t, ht⟩ : ∃ t : Fin cfg0.N, t.val = (i 0).val / 200 := ⟨⟨(i 0).val / 200, by rw [hN]; omega⟩, rfl⟩
  obtain ⟨-, -, -, -, -, -, -, -, e0, e1⟩ := idx_facts t
  refine ⟨t, flush0_4 t, ?_⟩
  rw [mem_blk_z1]
  intro a
  match a with
  | ⟨0, _⟩ =>
    show win0_4.index t 0 * 200 ≤ (i 0).val ∧ (i 0).val < win0_4.index t 0 * 200 + 200
    rw [e0, ht]; omega
  | ⟨1, _⟩ =>
    show win0_4.index t 1 * 200 ≤ (i 1).val ∧ (i 1).val < win0_4.index t 1 * 200 + 200
    rw [e1]; omega

/-- After the region the node-factor array holds, in row i, the node factor of row i of the adjacency. -/
theorem arr_s (c : Dev nD) :
    ((dat0 (F := Ideal) V c).arrAt 3 cfg0.N : S10000x1.Idx → EReal)
      = fun i => sK (mat (V c main_arg1 : S10000x10000.Idx → EReal)) (i 0) :=
  (dat0 (F := Ideal) V c).arrAt_eq_of_cover 3 (Gs V c) (fun t _ => flushed_s V c t) cover_s

/-- After the region the second output array holds the features times the first weights, its rows pre-scaled by the
    node factors. -/
theorem arr_z1 (c : Dev nD) :
    ((dat0 (F := Ideal) V c).arrAt 4 cfg0.N : S10000x200.Idx → EReal)
      = arr2 (z1K (mat (V c main_arg0 : S10000x10000.Idx → EReal)) (mat (V c main_arg1 : S10000x10000.Idx → EReal))
          (mat (V c main_arg2 : S10000x200.Idx → EReal))) :=
  (dat0 (F := Ideal) V c).arrAt_eq_of_cover 4 (Gz V c) (fun t _ => flushed_z1 V c t) cover_z1

end Cert.KernelIdeal.GcnRegion0

end
-- ==== Proof.KerRegion1.lean ====
/-
  The second region of the two-layer graph convolution: one aggregation, the hidden layer, and the second weights.

  Each of the fifty grid points holds 200 rows of the 10000 nodes. From the adjacency's row block `A`, the whole
  pre-scaled feature matrix `Z`, the node factor's row block `s`, the bias row `b` and the second weights `W` the
  body stores, at row `r` and column `q` of its block,

    (Σ_k max (((Σ_j A(r,j)·Z(j,k)) + Z(200·t + r, k)) · s(r) + b(k)) 0 · W(k,q)) · s(r):

  the neighbours' rows summed over the raw adjacency, the node's own row (read a second time out of the whole
  matrix, at the point's row offset) added, the sum scaled by the node factor, the bias added, the result clamped
  at zero, multiplied by the second weights and scaled by the node factor again. That is `Cert.Gcn.layer1` at row
  `200·t + r`. The blocks of the fifty points tile the output array (row `i` lies in the block of point `i / 200`),
  so after the last point the array is `layer1` of the arrays the region found, index by index.

  In order: what the body's one store leaves (`out_eq`); the two matrix products as sums over `Fin` coordinates
  (`mm1_apply`, `mm2_apply`) and the stored value at a coordinate (`pay_apply`, `pay_layer1`); where each window's
  block and the body's second read sit in their arrays (`idx_facts`, `iblk_*`, `selfRows_apply`); what a point writes
  back (`block_eq`, `flushed_eq`); the array after the run (`arr_z2`).
-/
import proofs.«114447_g24318104830572_cont_9to1_452_2_alg».proof.Proof.Gen.KernelIdeal.Frame
import proofs.«114447_g24318104830572_cont_9to1_452_2_alg».proof.Proof.GcnSpec
import proofs.«114447_g24318104830572_cont_9to1_452_2_alg».proof.Proof.LibColumnForms
import proofs.«114447_g24318104830572_cont_9to1_452_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section
open Idealize.ShloMosaic Idealize.ShloMosaic.TcCoe Idealize.SL.Sem
open Idealize.ShloMosaic.Pipeline (Dat)
namespace Cert.KernelIdeal.GcnRegion1
open Cert.KernelIdeal Cert.KernelIdeal.Gen Cert.Gcn

theorem hz : (![0, 0] : Fin 2 → Nat) = fun _ => 0 := funext fun a => by fin_cases a <;> rfl

/-- The rows of the whole pre-scaled feature matrix that the body re-reads for the self-loop term: the 200 rows
    starting at the row offset the body computes from the grid coordinate. -/
abbrev selfRows {F : FTy → Type} [FloatOps F] (i : grid1.Coords) (x1 : Vec F S10000x200 .f32) : Vec F S200x200 .f32 :=
  View.ld x1 (Rect.unit (s := S10000x200) (k1_off1 i) S200x200.size (k1_off1_inb i))

/-- What the body's one store leaves in the output's staging buffer: the payload of the blocks it loads. -/
theorem out_eq {F : FTy → Type} [FloatOps F] (c : Dev nD) (i : grid1.Coords) (arg1 : Memref sig .tc .vmem S200x10000 .f32) (harg1 : arg1.IsWhole) (arg2 : Memref sig .tc .vmem S10000x200 .f32) (harg2 : arg2.IsWhole) (arg3 : Memref sig .tc .vmem S200x1 .f32) (harg3 : arg3.IsWhole) (arg4 : Memref sig .tc .vmem S1x200 .f32) (harg4 : arg4.IsWhole) (arg5 : Memref sig .tc .vmem S200x128 .f32) (harg5 : arg5.IsWhole) (arg6 : Memref sig .tc .vmem S200x128 .f32) (harg6 : arg6.IsWhole)
    (x0 : Vec F S200x10000 .f32) (x1 : Vec F S10000x200 .f32) (x2 : Vec F S200x1 .f32) (x3 : Vec F S1x200 .f32) (x4 : Vec F S200x128 .f32) :
    out1_A_5 c i arg1 harg1 arg2 harg2 arg3 harg3 arg4 harg4 arg5 harg5 arg6 harg6 x0 x1 x2 x3 x4
      = k1_pay1 x0 x1 (selfRows i x1) x2 x3 x4 := by
  unfold out1_A_5
  rw [View.read_writes_eq_canon _ _ _ (cover1_A_5 c i arg1 harg1 arg2 harg2 arg3 harg3 arg4 harg4 arg5 harg5 arg6 harg6 x0 x1 x2 x3 x4)]
  unfold kernelRun1_A
  dsimp only
  rw [View.canon_unit_zero hz]
  simp only [View.readAt_eq_ld, harg1.read_unread, harg2.read_unread, harg3.read_unread, harg4.read_unread, harg5.read_unread,
    View.ld_unit_zero (S := S200x10000) hz, View.ld_unit_zero (S := S10000x200) hz, View.ld_unit_zero (S := S200x1) hz,
    View.ld_unit_zero (S := S1x200) hz, View.ld_unit_zero (S := S200x128) hz]

open Idealize.ShloMosaic.ValueIdx in
/-- The first product of the body at row `r`, column `k`: the textbook sum over the 10000 columns of the adjacency block. -/
theorem mm1_apply (v0 : FVec Ideal S200x10000 .f32) (v1 : FVec Ideal S10000x200 .f32) (r k : Fin 200) :
    (matmul dot_S200x10000_S10000x200_S200x200_1_0_0_1_n_n none v0 v1 (constant (F := Ideal) S200x200 .f32 0x00000000#32) : S200x200.Idx → EReal) (ix2 r k)
      = ∑ j : Fin 10000, (v0 : S200x10000.Idx → EReal) (ix2 r j) * (v1 : S10000x200.Idx → EReal) (ix2 j k) :=
  (Ideal.matmul_constant_zero_apply dot_S200x10000_S10000x200_S200x200_1_0_0_1_n_n none v0 v1 (ix2 r k)).trans
    (Cert.PlainDot.sum_eq dot_S200x10000_S10000x200_S200x200_1_0_0_1_n_n rfl rfl (fun _ _ => rfl) (fun _ _ => rfl)
      (fun _ _ => rfl) (fun _ _ => rfl) v0 v1 (ix2 r k))

open Idealize.ShloMosaic.ValueIdx in
/-- The second product of the body at row `r`, column `q`: the sum over the 200 hidden coordinates. -/
theorem mm2_apply (h : FVec Ideal S200x200 .f32) (w : FVec Ideal S200x128 .f32) (r : Fin 200) (q : Fin 128) :
    (matmul dot_S200x200_S200x128_S200x128_1_0_0_1_n_n none h w (constant (F := Ideal) S200x128 .f32 0x00000000#32) : S200x128.Idx → EReal) (ix2 r q)
      = ∑ k : Fin 200, (h : S200x200.Idx → EReal) (ix2 r k) * (w : S200x128.Idx → EReal) (ix2 k q) :=
  (Ideal.matmul_constant_zero_apply dot_S200x200_S200x128_S200x128_1_0_0_1_n_n none h w (ix2 r q)).trans
    (Cert.PlainDot.sum_eq dot_S200x200_S200x128_S200x128_1_0_0_1_n_n rfl rfl (fun _ _ => rfl) (fun _ _ => rfl)
      (fun _ _ => rfl) (fun _ _ => rfl) h w (ix2 r q))

open Idealize.ShloMosaic.ValueIdx in
/-- The body's stored value at row `r`, column `q` of its block, as sums over `Fin` coordinates of the blocks it loads:
    the aggregation `A·Z + Z` scaled by the node factor, the bias added, clamped at zero, multiplied by the second
    weights, and scaled by the node factor again. -/
theorem pay_apply (v0 : Vec Ideal S200x10000 .f32) (v1 : Vec Ideal S10000x200 .f32) (v6 : Vec Ideal S200x200 .f32)
    (v9 : Vec Ideal S200x1 .f32) (v13 : Vec Ideal S1x200 .f32) (v19 : Vec Ideal S200x128 .f32) (r : Fin 200) (q : Fin 128) :
    (k1_pay1 (F := Ideal) v0 v1 v6 v9 v13 v19 : S200x128.Idx → EReal) (ix2 r q)
      = (∑ k : Fin 200,
          max ((((∑ j : Fin 10000, (v0 : S200x10000.Idx → EReal) (ix2 r j) * (v1 : S10000x200.Idx → EReal) (ix2 j k))
                  + (v6 : S200x200.Idx → EReal) (ix2 r k)) * (v9 : S200x1.Idx → EReal) (ix2 r 0))
                + (v13 : S1x200.Idx → EReal) (ix2 0 k)) 0
            * (v19 : S200x128.Idx → EReal) (ix2 k q))
        * (v9 : S200x1.Idx → EReal) (ix2 r 0) := by
  unfold k1_pay1
  simp only [shapeCast_self]
  refine (mulf_apply _ _ (ix2 r q)).trans ?_
  refine congrArg₂ (· * ·) ?_ (Cert.ColumnForms.broadcastTo_a1_ab_apply v9 _ r q)
  refine (mm2_apply _ v19 r q).trans ?_
  refine Finset.sum_congr rfl fun k _ => ?_
  refine congrArg (· * (v19 : S200x128.Idx → EReal) (ix2 k q)) ?_
  refine (maximumf_apply _ _ (ix2 r k)).trans ?_
  refine congrArg₂ max ?_ Ideal.ofBits_zero_f32
  refine (addf_apply _ _ (ix2 r k)).trans ?_
  refine congrArg₂ (· + ·) ?_ (broadcastTo_1b_ab_apply v13 _ r k)
  refine (mulf_apply _ _ (ix2 r k)).trans ?_
  refine congrArg₂ (· * ·) ?_ (Cert.ColumnForms.broadcastTo_a1_ab_apply v9 _ r k)
  refine (addf_apply _ _ (ix2 r k)).trans ?_
  exact congrArg (· + (v6 : S200x200.Idx → EReal) (ix2 r k)) (mm1_apply v0 v1 r k)

/-- The printed index maps and the body's row offset, decided over the fifty grid points: the row-blocked windows
    (adjacency rows, node factor, output) sit at block `t`, the whole-array windows at block zero, and the body's
    second read of the feature matrix starts at row `200·t`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ k1_off1 (grid1.coords t) (0 : Fin 2) = t.val * 200 ∧ k1_off1 (grid1.coords t) (1 : Fin 2) = 0 :=
  (by decide +kernel : ∀ t : Fin grid1.N, _)

variable (V : (c : Dev nD) → (b : Ref sig .tc) → Buf (Elt Ideal) ((c : Thread nD τ).loc b))

/-- The adjacency window's block at point `t` is rows `200·t …` of the adjacency matrix. -/
theorem iblk_adj (c : Dev nD) (t : Fin cfg1.N) (x : S200x10000.Idx) (k : S10000x10000.Idx)
    (hk0 : (k 0).val = t.val * 200 + (x 0).val) (hk1 : (k 1).val = (x 1).val) :
    (iblk1 (F := Ideal) V c 0 t : Vec Ideal S200x10000 .f32) x = (V c main_arg1 : S10000x10000.Idx → EReal) k := by
  obtain ⟨e0, e1, -⟩ := idx_facts t
  unfold iblk1
  rw [View.read_apply]
  show (V c main_arg1 : S10000x10000.Idx → EReal) _ = V c main_arg1 k
  congr 1
  funext a
  apply Fin.ext
  match a with
  | ⟨0, _⟩ => show win1_0.index t (0 : Fin 2) * 200 + 1 * (x 0).val = (k 0).val; omega
  | ⟨1, _⟩ => show win1_0.index t (1 : Fin 2) * 10000 + 1 * (x 1).val = (k 1).val; omega

/-- The pre-scaled feature window's block, at every point, is the whole matrix. -/
theorem iblk_feat (c : Dev nD) (t : Fin cfg1.N) (x : S10000x200.Idx) :
    (iblk1 (F := Ideal) V c 1 t : Vec Ideal S10000x200 .f32) x = (V c main_v0_1 : S10000x200.Idx → EReal) x := by
  obtain ⟨-, -, e0, e1, -⟩ := idx_facts t
  unfold iblk1
  rw [View.read_apply]
  show (V c main_v0_1 : S10000x200.Idx → EReal) _ = V c main_v0_1 x
  congr 1
  funext a
  apply Fin.ext
  match a with
  | ⟨0, _⟩ => show win1_1.index t (0 : Fin 2) * 10000 + 1 * (x 0).val = (x 0).val; omega
  | ⟨1, _⟩ => show win1_1.index t (1 : Fin 2) * 200 + 1 * (x 1).val = (x 1).val; omega

/-- The node-factor window's block at point `t` is rows `200·t …` of the node-factor column. -/
theorem iblk_fac (c : Dev nD) (t : Fin cfg1.N) (x : S200x1.Idx) (k : S10000x1.Idx)
    (hk0 : (k 0).val = t.val * 200 + (x 0).val) (hk1 : (k 1).val = (x 1).val) :
    (iblk1 (F := Ideal) V c 2 t : Vec Ideal S200x1 .f32) x = (V c main_v0_0 : S10000x1.Idx → EReal) k := by
  obtain ⟨-, -, -, -, e0, e1, -⟩ := idx_facts t
  unfold iblk1
  rw [View.read_apply]
  show (V c main_v0_0 : S10000x1.Idx → EReal) _ = V c main_v0_0 k
  congr 1
  funext a
  apply Fin.ext
  match a with
  | ⟨0, _⟩ => show win1_2.index t (0 : Fin 2) * 200 + 1 * (x 0).val = (k 0).val; omega
  | ⟨1, _⟩ => show win1_2.index t (1 : Fin 2) * 1 + 1 * (x 1).val = (k 1).val; omega

/-- The bias window's block, at every point, is the whole bias row. -/
theorem iblk_bias (c : Dev nD) (t : Fin cfg1.N) (x : S1x200.Idx) :
    (iblk1 (F := Ideal) V c 3 t : Vec Ideal S1x200 .f32) x = (V c main_v1 : S1x200.Idx → EReal) x := by
  obtain ⟨-, -, -, -, -, -, e0, e1, -⟩ := idx_facts t
  unfold iblk1
  rw [View.read_apply]
  show (V c main_v1 : S1x200.Idx → EReal) _ = V c main_v1 x
  congr 1
  funext a
  apply Fin.ext
  match a with
  | ⟨0, _⟩ => show win1_3.index t (0 : Fin 2) * 1 + 1 * (x 0).val = (x 0).val; omega
  | ⟨1, _⟩ => show win1_3.index t (1 : Fin 2) * 200 + 1 * (x 1).val = (x 1).val; omega

/-- The second weights' window, at every point, is the whole matrix. -/
theorem iblk_wts (c : Dev nD) (t : Fin cfg1.N) (x : S200x128.Idx) :
    (iblk1 (F := Ideal) V c 4 t : Vec Ideal S200x128 .f32) x = (V c main_arg4 : S200x128.Idx → EReal) x := by
  obtain ⟨-, -, -, -, -, -, -, -, e0, e1, -⟩ := idx_facts t
  unfold iblk1
  rw [View.read_apply]
  show (V c main_arg4 : S200x128.Idx → EReal) _ = V c main_arg4 x
  congr 1
  funext a
  apply Fin.ext
  match a with
  | ⟨0, _⟩ => show win1_4.index t (0 : Fin 2) * 200 + 1 * (x 0).val = (x 0).val; omega
  | ⟨1, _⟩ => show win1_4.index t (1 : Fin 2) * 128 + 1 * (x 1).val = (x 1).val; omega

open Idealize.ShloMosaic.ValueIdx in
/-- The body's second read of the feature matrix, through the rectangle at the row offset it computes, is rows
    `200·t …` of the matrix. -/
theorem selfRows_apply (t : Fin cfg1.N) (x1 : Vec Ideal S10000x200 .f32) (r k : Fin 200) (R : Fin 10000)
    (hR : R.val = t.val * 200 + r.val) :
    (selfRows (F := Ideal) (grid1.coords t) x1 : S200x200.Idx → EReal) (ix2 r k) = (x1 : S10000x200.Idx → EReal) (ix2 R k) := by
  obtain ⟨-, -, -, -, -, -, -, -, -, -, -, -, e0, e1⟩ := idx_facts t
  show (x1 : S10000x200.Idx → EReal) _ = x1 (ix2 R k)
  congr 1
  funext a
  apply Fin.ext
  match a with
  | ⟨0, _⟩ => show k1_off1 (grid1.coords t) (0 : Fin 2) + 1 * r.val = R.val; omega
  | ⟨1, _⟩ => show k1_off1 (grid1.coords t) (1 : Fin 2) + 1 * k.val = k.val; omega

open Idealize.ShloMosaic.ValueIdx in
/-- The body's stored value at `(r, q)`, when its loaded blocks are the rows `R` of the arrays `A`, `s`, `Z` and the
    whole of `Z`, `b`, `W`, is the first layer's pre-scaled output at `(R, q)`. -/
theorem pay_layer1 (A : S10000x10000.Idx → EReal) (s : S10000x1.Idx → EReal) (Z : S10000x200.Idx → EReal)
    (b : S1x200.Idx → EReal) (W : S200x128.Idx → EReal)
    (v0 : Vec Ideal S200x10000 .f32) (v1 : Vec Ideal S10000x200 .f32) (v6 : Vec Ideal S200x200 .f32)
    (v9 : Vec Ideal S200x1 .f32) (v13 : Vec Ideal S1x200 .f32) (v19 : Vec Ideal S200x128 .f32)
    (R : Fin 10000) (r : Fin 200) (q : Fin 128)
    (h0 : ∀ j : Fin 10000, (v0 : S200x10000.Idx → EReal) (ix2 r j) = A (ix2 R j))
    (h1 : ∀ (j : Fin 10000) (k : Fin 200), (v1 : S10000x200.Idx → EReal) (ix2 j k) = Z (ix2 j k))
    (h6 : ∀ k : Fin 200, (v6 : S200x200.Idx → EReal) (ix2 r k) = Z (ix2 R k))
    (h9 : (v9 : S200x1.Idx → EReal) (ix2 r 0) = s (ix2 R 0))
    (h13 : ∀ k : Fin 200, (v13 : S1x200.Idx → EReal) (ix2 0 k) = b (ix2 0 k))
    (h19 : ∀ k : Fin 200, (v19 : S200x128.Idx → EReal) (ix2 k q) = W (ix2 k q)) :
    (k1_pay1 (F := Ideal) v0 v1 v6 v9 v13 v19 : S200x128.Idx → EReal) (ix2 r q)
      = layer1 (mat A) (fun i => s (ix2 i 0)) (mat Z) (fun k => b (ix2 0 k)) (mat W) R q := by
  rw [pay_apply]
  simp only [h0, h1, h6, h9, h13, h19]
  rfl

/-- The first layer's pre-scaled output as one function of the arrays the region finds. -/
abbrev target (c : Dev nD) : S10000x128.Idx → EReal :=
  arr2 (layer1 (mat (V c main_arg1 : S10000x10000.Idx → EReal))
    (fun i => (V c main_v0_0 : S10000x1.Idx → EReal) (ValueIdx.ix2 i 0))
    (mat (V c main_v0_1 : S10000x200.Idx → EReal))
    (fun k => (V c main_v1 : S1x200.Idx → EReal) (ValueIdx.ix2 0 k))
    (mat (V c main_arg4 : S200x128.Idx → EReal)))

open Idealize.ShloMosaic.ValueIdx in
/-- The body's stored value at `(r, q)` of point `t`'s block is the target at row `200·t + r`, column `q`. -/
theorem block_eq (c : Dev nD) (t : Fin cfg1.N) (r : Fin 200) (q : Fin 128) (R : Fin 10000)
    (hR : R.val = t.val * 200 + r.val) :
    (k1_pay1 (F := Ideal) (iblk1 V c 0 t) (iblk1 V c 1 t) (selfRows (grid1.coords t) (iblk1 V c 1 t)) (iblk1 V c 2 t)
        (iblk1 V c 3 t) (iblk1 V c 4 t) : S200x128.Idx → EReal) (ix2 r q)
      = target V c (ix2 R q) :=
  pay_layer1 (V c main_arg1) (V c main_v0_0) (V c main_v0_1) (V c main_v1) (V c main_arg4)
    (iblk1 V c 0 t) (iblk1 V c 1 t) (selfRows (grid1.coords t) (iblk1 V c 1 t)) (iblk1 V c 2 t) (iblk1 V c 3 t)
    (iblk1 V c 4 t) R r q
    (fun j => iblk_adj V c t (ix2 r j) (ix2 R j) hR rfl)
    (fun j k => iblk_feat V c t (ix2 j k))
    (fun k => (selfRows_apply t (iblk1 V c 1 t) r k R hR).trans (iblk_feat V c t (ix2 R k)))
    (iblk_fac V c t (ix2 r 0) (ix2 R 0) hR rfl)
    (fun k => iblk_bias V c t (ix2 0 k))
    (fun k => iblk_wts V c t (ix2 k q))

open Idealize.ShloMosaic.ValueIdx in
/-- What point `t` writes back is block `t` of the target. -/
theorem flushed_eq (c : Dev nD) (t : Fin cfg1.N) :
    (dat1 (F := Ideal) V c).flushed 5 t = ((cfg1.win 5).blk t).view.read (Elt Ideal) (target V c) := by
  show (cfg1.win 5).cut (grid1.coords t) ((dat1 (F := Ideal) V c).after 5 t) = _
  rw [after1_5]
  unfold outsAt1
  rw [out_eq]
  funext y
  obtain ⟨r, q, rfl⟩ : ∃ (r : Fin 200) (q : Fin 128), y = ix2 r q := ⟨y 0, y 1, eq_ix2 y⟩
  rw [View.read_apply]
  obtain ⟨-, -, -, -, -, -, -, -, -, -, e0, e1, -⟩ := idx_facts t
  have hN : cfg1.N = 50 := N_1
  have ht : t.val < 50 := hN ▸ t.isLt
  have hr : r.val < 200 := r.isLt
  refine (block_eq V c t r q ⟨t.val * 200 + r.val, by omega⟩ rfl).trans ?_
  show target V c _ = target V c _
  congr 1
  funext a
  apply Fin.ext
  match a with
  | ⟨0, _⟩ => show t.val * 200 + r.val = win1_5.index t (0 : Fin 2) * 200 + 1 * r.val; omega
  | ⟨1, _⟩ => show q.val = win1_5.index t (1 : Fin 2) * 128 + 1 * q.val; omega

/-- After the fifty points the output array holds the first layer's pre-scaled output: every row `i` lies in the block
    of point `i / 200`. -/
theorem arr_z2 (c : Dev nD) :
    ((dat1 (F := Ideal) V c).arrAt 5 cfg1.N : S10000x128.Idx → EReal)
      = arr2 (layer1 (mat (V c main_arg1 : S10000x10000.Idx → EReal))
          (fun i => (V c main_v0_0 : S10000x1.Idx → EReal) (ValueIdx.ix2 i 0))
          (mat (V c main_v0_1 : S10000x200.Idx → EReal))
          (fun k => (V c main_v1 : S1x200.Idx → EReal) (ValueIdx.ix2 0 k))
          (mat (V c main_arg4 : S200x128.Idx → EReal))) :=
  (dat1 (F := Ideal) V c).arrAt_eq_of_cover 5 (target V c) (fun t _ => flushed_eq V c t) fun i => by
    have hN : cfg1.N = 50 := N_1
    have h0 : (i 0 : Nat) < 10000 := (i 0).isLt
    have h1 : (i 1 : Nat) < 128 := (i 1).isLt
    obtain ⟨t, ht⟩ : ∃ t : Fin cfg1.N, t.val = (i 0 : Nat) / 200 := ⟨⟨(i 0 : Nat) / 200, by omega⟩, rfl⟩
    refine ⟨t, flush1_5 t, ?_⟩
    obtain ⟨-, -, -, -, -, -, -, -, -, -, e0, e1, -⟩ := idx_facts t
    show i ∈ ((View.whole main_v2).slice (win1_5.rect t)).set
    rw [View.set_slice_whole, Rect.mem_set_unit]
    intro a
    match a with
    | ⟨0, _⟩ =>
      show win1_5.index t (0 : Fin 2) * 200 ≤ (i 0 : Nat) ∧ (i 0 : Nat) < win1_5.index t (0 : Fin 2) * 200 + 200
      omega
    | ⟨1, _⟩ =>
      show win1_5.index t (1 : Fin 2) * 128 ≤ (i 1 : Nat) ∧ (i 1 : Nat) < win1_5.index t (1 : Fin 2) * 128 + 128
      omega

end Cert.KernelIdeal.GcnRegion1
end
-- ==== Proof.KerRegion2.lean ====
/-
  The third pass of the two-layer graph convolution, read as mathematics: what the result array holds after it.

  Each of the 50 grid points handles a block of 200 nodes. From the block's rows `a` of the raw adjacency, the whole
  pre-scaled feature matrix `z` (and the block's own rows of it, for the self loop), the block's node factors `s` and
  the bias row `b`, the body forms the logits `((a·z) + z_block) · s + b`, takes each row's maximum from minus infinity,
  exponentiates the shifted entries, sums them along the lanes and divides: the row-wise softmax of the logits. Read at
  row `200·t + r` of the arrays this is `layer2` of the specification, and the 50 blocks tile the result array.
-/
import proofs.«114447_g24318104830572_cont_9to1_452_2_alg».proof.Proof.Gen.KernelIdeal.Frame
import proofs.«114447_g24318104830572_cont_9to1_452_2_alg».proof.Proof.GcnSpec
import proofs.«114447_g24318104830572_cont_9to1_452_2_alg».proof.Proof.LibColumnForms
import proofs.«114447_g24318104830572_cont_9to1_452_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section
open Idealize.ShloMosaic Idealize.ShloMosaic.TcCoe Idealize.SL.Sem
open Idealize.ShloMosaic.Pipeline (Dat)
namespace Cert.KernelIdeal.GcnRegion2
open Cert.KernelIdeal Cert.KernelIdeal.Gen Cert.Gcn
open Idealize.ShloMosaic.ValueIdx
variable (V : (c : Dev nD) → (b : Ref sig .tc) → Buf (Elt Ideal) ((c : Thread nD τ).loc b))

/-! ## Row-wise softmax and the block's logits, read at coordinates -/

/-- Softmax reads only its own row: two matrices that agree on a row have the same softmax there. -/
theorem softmax_row_congr {n n' o : ℕ} (L : Mat n o) (L' : Mat n' o) (i : Fin n) (i' : Fin n') (h : L i = L' i')
    (q : Fin o) : softmax L i q = softmax L' i' q := by
  unfold softmax rowMax
  rw [h]

/-- The lane maximum of a 200 × 128 block from minus infinity, at row `r`: the fold of `max` over the row. -/
theorem laneMax_apply (L : FVec Ideal S200x128 .f32) (hφ : FKind.Formats .f32)
    (hacc : (0xFF800000#32 : BitVec 32) = FKind.maximumf.neutral .f32 hφ) (r : Fin 200) :
    multiReduction .maximumf [1] S200 L 0xFF800000#32 reduces_S200x128_S200 hφ hacc (ix1 r)
      = rowMax (fun p q => L (ix2 p q)) r := by
  refine (Ideal.multiReduction_maximumf_single L _ reduces_S200x128_S200 hφ hacc (ix1 r)).trans ?_
  have e : (L ∘ reduces_S200x128_S200.lift (ix1 r)) = fun q' : Fin 128 => L (ix2 r q') :=
    funext fun q' => congrArg L (funext fun c => Fin.ext (by
      match c with
      | ⟨0, _⟩ => rfl
      | ⟨1, _⟩ => rfl))
  rw [e]
  rfl

/-- The lane sum of a 200 × 128 block, at row `r`: the sum over the row. -/
theorem laneSum_apply (E : FVec Ideal S200x128 .f32) (hφ : FKind.Formats .f32)
    (hacc : (0x00000000#32 : BitVec 32) = FKind.add.neutral .f32 hφ) (r : Fin 200) :
    multiReduction .add [1] S200 E 0x00000000#32 reduces_S200x128_S200 hφ hacc (ix1 r)
      = ∑ q' : Fin 128, E (ix2 r q') := by
  refine (Ideal.multiReduction_add_single E _ reduces_S200x128_S200 hφ hacc (ix1 r)).trans ?_
  exact Finset.sum_congr rfl fun q' _ => congrArg E (funext fun c => Fin.ext (by
    match c with
    | ⟨0, _⟩ => rfl
    | ⟨1, _⟩ => rfl))

/-- A per-row value kept as a [200] vector, cast to a column and broadcast over the 128 lanes, reads the row's value. -/
theorem rowBroadcast_apply (x : FVec Ideal S200 .f32) (r : Fin 200) (q : Fin 128) :
    broadcastTo S200x128 (shapeCast S200x1 x shapeCasts_S200_S200x1) broadcasts_S200x1_S200x128 (ix2 r q) = x (ix1 r) :=
  (Cert.ColumnForms.broadcastTo_a1_ab_apply _ broadcasts_S200x1_S200x128 r q).trans
    (Cert.ColumnForms.shapeCast_a_a1_apply x shapeCasts_S200_S200x1 r 0)

/-- The tail of the body: shift by the lane maximum, exponentiate, divide by the lane sum — the row-wise softmax. -/
theorem softmaxTail_apply (L : FVec Ideal S200x128 .f32) (hφ : FKind.Formats .f32)
    (hmax : (0xFF800000#32 : BitVec 32) = FKind.maximumf.neutral .f32 hφ)
    (hadd : (0x00000000#32 : BitVec 32) = FKind.add.neutral .f32 hφ) (r : Fin 200) (q : Fin 128) :
    divf
        (exp (subf L (broadcastTo S200x128 (shapeCast S200x1
          (multiReduction .maximumf [1] S200 L 0xFF800000#32 reduces_S200x128_S200 hφ hmax) shapeCasts_S200_S200x1) broadcasts_S200x1_S200x128)))
        (broadcastTo S200x128 (shapeCast S200x1
          (multiReduction .add [1] S200
            (exp (subf L (broadcastTo S200x128 (shapeCast S200x1
              (multiReduction .maximumf [1] S200 L 0xFF800000#32 reduces_S200x128_S200 hφ hmax) shapeCasts_S200_S200x1) broadcasts_S200x1_S200x128)))
            0x00000000#32 reduces_S200x128_S200 hφ hadd) shapeCasts_S200_S200x1) broadcasts_S200x1_S200x128)
        (ix2 r q)
      = softmax (fun p q => L (ix2 p q)) r q := by
  have hshift : ∀ q' : Fin 128,
      exp (subf L (broadcastTo S200x128 (shapeCast S200x1
          (multiReduction .maximumf [1] S200 L 0xFF800000#32 reduces_S200x128_S200 hφ hmax) shapeCasts_S200_S200x1) broadcasts_S200x1_S200x128)) (ix2 r q')
        = Ideal.exp (L (ix2 r q') - rowMax (fun p q => L (ix2 p q)) r) := fun q' => by
    show Ideal.exp (L (ix2 r q') - broadcastTo S200x128 (shapeCast S200x1
          (multiReduction .maximumf [1] S200 L 0xFF800000#32 reduces_S200x128_S200 hφ hmax) shapeCasts_S200_S200x1) broadcasts_S200x1_S200x128 (ix2 r q')) = _
    rw [rowBroadcast_apply, laneMax_apply]
  show Ideal.div (exp (subf L _) (ix2 r q)) (broadcastTo S200x128 (shapeCast S200x1 _ shapeCasts_S200_S200x1) broadcasts_S200x1_S200x128 (ix2 r q)) = _
  rw [rowBroadcast_apply, laneSum_apply, hshift q]
  unfold softmax
  exact congrArg _ (Finset.sum_congr rfl fun q' _ => hshift q')

/-- The logits of a block of 200 nodes, from the blocks the body loads: the block's adjacency rows `a`, the whole
    pre-scaled feature matrix `z`, the block's own rows `zs` of it, the block's node factors `s` and the bias `b`. -/
def blockLogits (a : Vec Ideal S200x10000 .f32) (z : Vec Ideal S10000x128 .f32) (zs : Vec Ideal S200x128 .f32)
    (s : Vec Ideal S200x1 .f32) (b : Vec Ideal S1x128 .f32) : Mat 200 128 :=
  fun r q => ((∑ j : Fin 10000, a (ix2 r j) * z (ix2 j q)) + zs (ix2 r q)) * s (ix2 r 0) + b (ix2 0 q)

/-- The product of the block's adjacency rows with the whole feature matrix, at (r, q). -/
theorem blockDot_apply (a : FVec Ideal S200x10000 .f32) (z : FVec Ideal S10000x128 .f32) (r : Fin 200) (q : Fin 128) :
    matmul dot_S200x10000_S10000x128_S200x128_1_0_0_1_n_n none a z (constant (F := Ideal) S200x128 .f32 0x00000000#32) (ix2 r q)
      = ∑ j : Fin 10000, a (ix2 r j) * z (ix2 j q) :=
  (Ideal.matmul_constant_zero_apply dot_S200x10000_S10000x128_S200x128_1_0_0_1_n_n none a z (ix2 r q)).trans
    (Cert.PlainDot.sum_eq dot_S200x10000_S10000x128_S200x128_1_0_0_1_n_n rfl rfl
      (fun _ _ => rfl) (fun _ _ => rfl) (fun _ _ => rfl) (fun _ _ => rfl) a z (ix2 r q))

/-- The body's stored value at (r, q) of the block: the softmax of the block's logits. -/
theorem pay_apply (a : Vec Ideal S200x10000 .f32) (z : Vec Ideal S10000x128 .f32) (zs : Vec Ideal S200x128 .f32)
    (s : Vec Ideal S200x1 .f32) (b : Vec Ideal S1x128 .f32) (r : Fin 200) (q : Fin 128) :
    k2_pay1 (F := Ideal) a z zs s b (ix2 r q) = softmax (blockLogits a z zs s b) r q := by
  unfold k2_pay1
  dsimp only
  refine (softmaxTail_apply _ _ _ _ r q).trans ?_
  refine softmax_row_congr _ _ r r (funext fun q' => ?_) q
  show (matmul dot_S200x10000_S10000x128_S200x128_1_0_0_1_n_n none a (shapeCast S10000x128 z shapeCasts_S10000x128_S10000x128)
        (constant (F := Ideal) S200x128 .f32 0x00000000#32) (ix2 r q')
      + shapeCast S200x128 zs shapeCasts_S200x128_S200x128 (ix2 r q'))
      * broadcastTo S200x128 (shapeCast S200x1 s shapeCasts_S200x1_S200x1) broadcasts_S200x1_S200x128 (ix2 r q')
      + broadcastTo S200x128 (shapeCast S1x128 b shapeCasts_S1x128_S1x128) broadcasts_S1x128_S200x128 (ix2 r q') = _
  rw [shapeCast_self z, shapeCast_self zs, shapeCast_self s, shapeCast_self b, blockDot_apply,
    Cert.ColumnForms.broadcastTo_a1_ab_apply, broadcastTo_1b_ab_apply]
  rfl

/-! ## What the body leaves in the output's staging buffer -/

theorem zeroOff : (![0, 0] : Fin 2 → Nat) = fun _ => 0 := funext fun a => by fin_cases a <;> rfl

/-- The body's one store fills the output block with the payload of its five loads; the third load reads the rows
    `200·i … 200·i + 199` of the whole feature matrix it also loads in full. -/
theorem out_eq (c : Dev nD) (i : grid2.Coords) (arg1 : Memref sig .tc .vmem S200x10000 .f32) (harg1 : arg1.IsWhole) (arg2 : Memref sig .tc .vmem S10000x128 .f32) (harg2 : arg2.IsWhole) (arg3 : Memref sig .tc .vmem S200x1 .f32) (harg3 : arg3.IsWhole) (arg4 : Memref sig .tc .vmem S1x128 .f32) (harg4 : arg4.IsWhole) (arg5 : Memref sig .tc .vmem S200x128 .f32) (harg5 : arg5.IsWhole)
    (x0 : Vec Ideal S200x10000 .f32) (x1 : Vec Ideal S10000x128 .f32) (x2 : Vec Ideal S200x1 .f32) (x3 : Vec Ideal S1x128 .f32) :
    out2_A_4 (F := Ideal) c i arg1 harg1 arg2 harg2 arg3 harg3 arg4 harg4 arg5 harg5 x0 x1 x2 x3
      = k2_pay1 x0 x1
          (fun y => x1 ((Rect.unit (s := S10000x128) (k2_off1 i) S200x128.size (k2_off1_inb i)).toLoadRect.idx y)) x2 x3 := by
  unfold out2_A_4
  rw [View.read_writes_eq_canon _ _ _ (cover2_A_4 c i arg1 harg1 arg2 harg2 arg3 harg3 arg4 harg4 arg5 harg5 x0 x1 x2 x3)]
  unfold kernelRun2_A
  dsimp only
  rw [View.canon_unit_zero zeroOff]
  simp only [View.readAt_eq_ld, harg1.read_unread, harg2.read_unread, harg3.read_unread, harg4.read_unread,
    View.ld_unit_zero (S := S200x10000) zeroOff, View.ld_unit_zero (S := S10000x128) zeroOff,
    View.ld_unit_zero (S := S200x1) zeroOff, View.ld_unit_zero (S := S1x128) zeroOff]
  rfl

/-! ## The blocks the body loads, as rows of the arrays the region finds -/

/-- The printed index maps, decided over the grid: the three row-block windows sit at block row `t`, the two whole-array
    windows at block (0, 0), and the grid coordinate the body sees is `t`. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ (grid2.coords t 0).val = t.val :=
  (by decide +kernel : ∀ t : Fin grid2.N, _)

/-- Row `r` of the block of point `t`, as a row of the arrays: `200·t + r`. -/
def rowOf (t : Fin cfg2.N) (r : Fin 200) : Fin 10000 :=
  ⟨t.val * 200 + r.val, by have := t.isLt; have hN : cfg2.N = 50 := N_2; omega⟩

/-- The adjacency window's block at point `t` is rows `200·t …` of the adjacency. -/
theorem iblk_adj (c : Dev nD) (t : Fin cfg2.N) (r : Fin 200) (j : Fin 10000) :
    (iblk2 V c 0 t : Vec Ideal S200x10000 .f32) (ix2 r j)
      = (V c main_arg1 : S10000x10000.Idx → EReal) (ix2 (rowOf t r) j) := by
  obtain ⟨e0, e1, -⟩ := idx_facts t
  unfold iblk2
  rw [View.read_apply]
  show V c main_arg1 _ = V c main_arg1 _
  congr 1
  funext a
  apply Fin.ext
  match a with
  | ⟨0, _⟩ => show win2_0.index t 0 * 200 + 1 * r.val = t.val * 200 + r.val; rw [e0]; omega
  | ⟨1, _⟩ => show win2_0.index t 1 * 10000 + 1 * j.val = j.val; rw [e1]; omega

/-- The feature window's block at any point is the whole pre-scaled feature matrix. -/
theorem iblk_feat (c : Dev nD) (t : Fin cfg2.N) (x k : S10000x128.Idx)
    (h0 : (k 0).val = (x 0).val) (h1 : (k 1).val = (x 1).val) :
    (iblk2 V c 1 t : Vec Ideal S10000x128 .f32) x = (V c main_v2 : S10000x128.Idx → EReal) k := by
  obtain ⟨-, -, e0, e1, -⟩ := idx_facts t
  unfold iblk2
  rw [View.read_apply]
  show V c main_v2 _ = V c main_v2 _
  congr 1
  funext a
  apply Fin.ext
  match a with
  | ⟨0, _⟩ => show win2_1.index t 0 * 10000 + 1 * (x 0).val = (k 0).val; rw [e0, h0]; omega
  | ⟨1, _⟩ => show win2_1.index t 1 * 128 + 1 * (x 1).val = (k 1).val; rw [e1, h1]; omega

/-- The node-factor window's block at point `t` is rows `200·t …` of the node-factor column. -/
theorem iblk_fac (c : Dev nD) (t : Fin cfg2.N) (r : Fin 200) :
    (iblk2 V c 2 t : Vec Ideal S200x1 .f32) (ix2 r 0)
      = (V c main_v0_0 : S10000x1.Idx → EReal) (ix2 (rowOf t r) 0) := by
  obtain ⟨-, -, -, -, e0, e1, -⟩ := idx_facts t
  unfold iblk2
  rw [View.read_apply]
  show V c main_v0_0 _ = V c main_v0_0 _
  congr 1
  funext a
  apply Fin.ext
  match a with
  | ⟨0, _⟩ => show win2_2.index t 0 * 200 + 1 * r.val = t.val * 200 + r.val; rw [e0]; omega
  | ⟨1, _⟩ => show win2_2.index t 1 * 1 + 1 * 0 = 0; rw [e1]

/-- The bias window's block at any point is the bias row. -/
theorem iblk_bias (c : Dev nD) (t : Fin cfg2.N) (q : Fin 128) :
    (iblk2 V c 3 t : Vec Ideal S1x128 .f32) (ix2 0 q) = (V c main_v3 : S1x128.Idx → EReal) (ix2 0 q) := by
  obtain ⟨-, -, -, -, -, -, e0, e1, -⟩ := idx_facts t
  unfold iblk2
  rw [View.read_apply]
  show V c main_v3 _ = V c main_v3 _
  congr 1
  funext a
  apply Fin.ext
  match a with
  | ⟨0, _⟩ => show win2_3.index t 0 * 1 + 1 * 0 = 0; rw [e0]
  | ⟨1, _⟩ => show win2_3.index t 1 * 128 + 1 * q.val = q.val; rw [e1]; omega

/-! ## One block of the result, and the whole array -/

/-- The body's value on a block whose loads are rows `R r` of the arrays: the second aggregation and softmax, at
    row `R r`. -/
theorem block_apply (A : S10000x10000.Idx → EReal) (S : S10000x1.Idx → EReal) (Z : S10000x128.Idx → EReal)
    (B : S1x128.Idx → EReal) (a : Vec Ideal S200x10000 .f32) (z : Vec Ideal S10000x128 .f32)
    (zs : Vec Ideal S200x128 .f32) (s : Vec Ideal S200x1 .f32) (b : Vec Ideal S1x128 .f32) (R : Fin 200 → Fin 10000)
    (ha : ∀ r j, a (ix2 r j) = A (ix2 (R r) j)) (hz : ∀ j q, z (ix2 j q) = Z (ix2 j q))
    (hzs : ∀ r q, zs (ix2 r q) = Z (ix2 (R r) q)) (hs : ∀ r, s (ix2 r 0) = S (ix2 (R r) 0))
    (hb : ∀ q, b (ix2 0 q) = B (ix2 0 q)) (r : Fin 200) (q : Fin 128) :
    k2_pay1 (F := Ideal) a z zs s b (ix2 r q)
      = layer2 (mat A) (fun i => S (ix2 i 0)) (mat Z) (fun q => B (ix2 0 q)) (R r) q := by
  rw [pay_apply]
  unfold layer2
  refine softmax_row_congr _ _ r (R r) (funext fun q' => ?_) q
  show ((∑ j : Fin 10000, a (ix2 r j) * z (ix2 j q')) + zs (ix2 r q')) * s (ix2 r 0) + b (ix2 0 q')
    = ((∑ j : Fin 10000, A (ix2 (R r) j) * Z (ix2 j q')) + Z (ix2 (R r) q')) * S (ix2 (R r) 0) + B (ix2 0 q')
  rw [hzs, hs, hb]
  exact congrArg (fun x => (x + Z (ix2 (R r) q')) * S (ix2 (R r) 0) + B (ix2 0 q'))
    (Finset.sum_congr rfl fun j _ => by rw [ha, hz])

/-- What the result array holds after the run, as one function of the arrays the region finds. -/
abbrev result (c : Dev nD) : S10000x128.Idx → EReal :=
  arr2 (layer2 (mat (V c main_arg1 : S10000x10000.Idx → EReal))
    (fun i => (V c main_v0_0 : S10000x1.Idx → EReal) (ix2 i 0))
    (mat (V c main_v2 : S10000x128.Idx → EReal))
    (fun q => (V c main_v3 : S1x128.Idx → EReal) (ix2 0 q)))

/-- What point `t` writes back is block `t` of `result`. -/
theorem flushed_eq (c : Dev nD) (t : Fin cfg2.N) :
    (dat2 (F := Ideal) V c).flushed 4 t = ((cfg2.win 4).blk t).view.read (Elt Ideal) (result V c) := by
  obtain ⟨-, -, -, -, -, -, -, -, e0, e1, ec⟩ := idx_facts t
  show (cfg2.win 4).cut (grid2.coords t) ((dat2 V c).after 4 t) = _
  rw [after2_4]
  unfold outsAt2
  rw [out_eq]
  funext y
  obtain ⟨r, q, rfl⟩ : ∃ (r : Fin 200) (q : Fin 128), y = ix2 r q := ⟨y 0, y 1, eq_ix2 y⟩
  have hemb : ((cfg2.win 4).blk t).view.emb (ix2 r q) = ix2 (rowOf t r) q := by
    funext a
    apply Fin.ext
    match a with
    | ⟨0, _⟩ => show win2_4.index t 0 * 200 + 1 * r.val = t.val * 200 + r.val; rw [e0]; omega
    | ⟨1, _⟩ => show win2_4.index t 1 * 128 + 1 * q.val = q.val; rw [e1]; omega
  show k2_pay1 (F := Ideal) (iblk2 V c 0 t) (iblk2 V c 1 t)
      (fun y => iblk2 V c 1 t ((Rect.unit (s := S10000x128) (k2_off1 (grid2.coords t)) S200x128.size (k2_off1_inb (grid2.coords t))).toLoadRect.idx y))
      (iblk2 V c 2 t) (iblk2 V c 3 t) (ix2 r q)
    = result V c (((cfg2.win 4).blk t).view.emb (ix2 r q))
  rw [hemb]
  refine block_apply (V c main_arg1) (V c main_v0_0) (V c main_v2) (V c main_v3) (iblk2 V c 0 t) (iblk2 V c 1 t)
    (fun y => iblk2 V c 1 t ((Rect.unit (s := S10000x128) (k2_off1 (grid2.coords t)) S200x128.size (k2_off1_inb (grid2.coords t))).toLoadRect.idx y))
    (iblk2 V c 2 t) (iblk2 V c 3 t) (rowOf t)
    (fun r j => iblk_adj V c t r j) (fun j q => iblk_feat V c t (ix2 j q) (ix2 j q) rfl rfl)
    (fun r q => ?_) (fun r => iblk_fac V c t r) (fun q => iblk_bias V c t q) r q
  refine iblk_feat V c t _ (ix2 (rowOf t r) q) ?_ ?_
  · show t.val * 200 + r.val = k2_off1 (grid2.coords t) 0 + 1 * r.val
    rw [k2_off1_eq]
    show t.val * 200 + r.val = 200 * (grid2.coords t 0).val + 1 * r.val
    rw [ec]; omega
  · show q.val = k2_off1 (grid2.coords t) 1 + 1 * q.val
    rw [k2_off1_eq]
    show q.val = 0 + 1 * q.val
    omega

/-- An index of the result array is in point `t`'s block iff each coordinate is in the block's range on its axis. -/
theorem mem_blk (t : Fin cfg2.N) (i : S10000x128.Idx) :
    i ∈ ((cfg2.win 4).blk t).view.set ↔ ∀ a : Fin 2, win2_4.index t a * S200x128.size a ≤ (i a).val
      ∧ (i a).val < win2_4.index t a * S200x128.size a + S200x128.size a := by
  show i ∈ ((View.whole main_v4).slice (win2_4.rect t)).set ↔ _
  rw [View.set_slice_whole, Rect.mem_set_unit]
  exact Iff.rfl

/-- Every index of the result array is in the block of the point `row / 200`, which writes back. -/
theorem covered (i : S10000x128.Idx) :
    ∃ t : Fin cfg2.N, (cfg2.win 4).flush t = true ∧ i ∈ ((cfg2.win 4).blk t).view.set := by
  have hi0 : (i 0).val < 10000 := (i 0).isLt
  have hi1 : (i 1).val < 128 := (i 1).isLt
  have hN : cfg2.N = 50 := N_2
  obtain ⟨t, ht⟩ : ∃ t : Fin cfg2.N, t.val = (i 0).val / 200 := ⟨⟨(i 0).val / 200, by omega⟩, rfl⟩
  obtain ⟨-, -, -, -, -, -, -, -, e0, e1, -⟩ := idx_facts t
  refine ⟨t, flush2_4 t, ?_⟩
  rw [mem_blk]
  intro a
  match a with
  | ⟨0, _⟩ =>
    show win2_4.index t (0 : Fin 2) * 200 ≤ (i 0).val ∧ (i 0).val < win2_4.index t (0 : Fin 2) * 200 + 200
    rw [e0]; omega
  | ⟨1, _⟩ =>
    show win2_4.index t (1 : Fin 2) * 128 ≤ (i 1).val ∧ (i 1).val < win2_4.index t (1 : Fin 2) * 128 + 128
    rw [e1]; omega

/-- The result array after the third pass: the second aggregation of the pre-scaled features over the raw adjacency,
    scaled by the node factors, the bias added, and the row-wise softmax — of the arrays as the region finds them. -/
theorem arr_out (c : Dev nD) :
    ((dat2 (F := Ideal) V c).arrAt 4 cfg2.N : S10000x128.Idx → EReal)
      = arr2 (layer2 (mat (V c main_arg1 : S10000x10000.Idx → EReal))
          (fun i => (V c main_v0_0 : S10000x1.Idx → EReal) (ValueIdx.ix2 i 0))
          (mat (V c main_v2 : S10000x128.Idx → EReal))
          (fun q => (V c main_v3 : S1x128.Idx → EReal) (ValueIdx.ix2 0 q))) :=
  (dat2 (F := Ideal) V c).arrAt_eq_of_cover 4 (result V c) (fun t _ => flushed_eq V c t) covered

end Cert.KernelIdeal.GcnRegion2
end
-- ==== Proof.RefValue.lean ====
/-
  The reference program of the two-layer graph convolution, read element by element.

  The program forms the adjacency with a one added on the diagonal (a scatter-add of ones at the index pairs
  (u, u)), its row sums, the node factors `d i = (max (deg i) ε)^(-1/2)`, the normalised adjacency
  `N i j = Â i j · d i · d j`, the hidden layer `max (N·(X·W₁) + b₁) 0`, the logits `N·(H·W₂) + b₂` and their
  row-wise softmax. Each lemma below reads one stage of the program at explicit coordinates and identifies it with
  the corresponding function of the specification; the last one chains them.

  The one stage that is not a pointwise or a textbook operation is the scatter. Its index array holds, for update
  `u`, the 32-bit word of `u` in both columns (an `iota`, wrapped by a `select` on "negative" that never fires
  for a node number); read signed, that word is `u`, so update `u` lands on the diagonal element (u, u) and on no
  other, and the sum of the updates landing on (p, q) is the update's value when `p = q` and zero otherwise.
-/
import proofs.«114447_g24318104830572_cont_9to1_452_2_alg».proof.Proof.Gen.ReferenceIdeal.Read
import proofs.«114447_g24318104830572_cont_9to1_452_2_alg».proof.Proof.GcnSpec
import proofs.«114447_g24318104830572_cont_9to1_452_2_alg».proof.Proof.LibRealValued
import Idealize.ShloMosaic.Lib.ValueIdx
import Idealize.ShloMosaic.PureOps.Ideal.Laws
import Idealize.ShloMosaic.Lib.Pipeline.Value

noncomputable section
open Idealize.ShloMosaic Idealize.ShloMosaic.TcCoe Idealize.SL.Sem
namespace Cert.ReferenceIdeal.GcnRef
open Cert.ReferenceIdeal Cert.ReferenceIdeal.Gen Cert.Gcn
open Idealize.ShloMosaic.ValueIdx

/-! ## The node numbers as 32-bit words -/

/-- A node number, as a 32-bit word read signed, is itself. -/
theorem toInt_word (u : Nat) (hu : u < 10000) : (BitVec.ofNat 32 u).toInt = (u : Int) := by
  have hn : (BitVec.ofNat 32 u).toNat = u := by rw [BitVec.toNat_ofNat]; exact Nat.mod_eq_of_lt (by omega)
  rw [BitVec.toInt_eq_toNat_cond, hn]
  split <;> omega

/-- A node number's word is not negative: the signed comparison with zero answers the zero bit. -/
theorem slt_zero_word (u : Nat) (hu : u < 10000) : IntOp.cmpi .slt (BitVec.ofNat 32 u) 0#32 = 0#1 := by
  have hlt : (BitVec.ofNat 32 u).slt 0#32 = false := by
    simp only [BitVec.slt, BitVec.toInt_zero, decide_eq_false_iff_not, Int.not_lt]
    rw [toInt_word u hu]; omega
  show BitVec.ofBool ((BitVec.ofNat 32 u).slt 0#32) = 0#1
  rw [hlt]; rfl

/-- The wrapped row index `select (iota < 0) (iota + n) iota` at node `p` is the word of `p`. -/
theorem v5_word (p : Fin 10000) : Read.val_main_v5 (F := Ideal) (ix1 p) = BitVec.ofNat 32 p.val := by
  rw [Read.val_main_v5_apply, Read.val_main_v2_apply, Read.val_main_v1_apply, Read.val_main_c_apply,
    Read.val_main_v0_apply]
  show Scalar.select (IntOp.cmpi .slt (BitVec.ofNat 32 p.val) 0#32) _ _ = _
  rw [slt_zero_word p.val p.isLt, select_zero]

/-- The wrapped column index at node `p` is the word of `p` too. -/
theorem v10_word (p : Fin 10000) : Read.val_main_v10 (F := Ideal) (ix1 p) = BitVec.ofNat 32 p.val := by
  rw [Read.val_main_v10_apply, Read.val_main_v7_apply, Read.val_main_v6_apply, Read.val_main_c_1_apply,
    Read.val_main_v0_apply]
  show Scalar.select (IntOp.cmpi .slt (BitVec.ofNat 32 p.val) 0#32) _ _ = _
  rw [slt_zero_word p.val p.isLt, select_zero]

theorem v11_word (p : Fin 10000) : Read.val_main_v11 (F := Ideal) (ix2 p (0 : Fin 1)) = BitVec.ofNat 32 p.val := by
  rw [Read.val_main_v11_apply]
  have e : Read.idx_main_v11 (ix2 p (0 : Fin 1)) = ix1 p := funext fun a => Fin.ext (by match a with | ⟨0, _⟩ => rfl)
  rw [e, v5_word]

theorem v12_word (p : Fin 10000) : Read.val_main_v12 (F := Ideal) (ix2 p (0 : Fin 1)) = BitVec.ofNat 32 p.val := by
  rw [Read.val_main_v12_apply]
  have e : Read.idx_main_v12 (ix2 p (0 : Fin 1)) = ix1 p := funext fun a => Fin.ext (by match a with | ⟨0, _⟩ => rfl)
  rw [e, v10_word]

/-- The scatter's index array, column 0: the row index of update `u` is the word of `u`. -/
theorem v13_word0 (u : Fin 10000) : Read.val_main_v13 (F := Ideal) (ix2 u (0 : Fin 2)) = BitVec.ofNat 32 u.val := by
  unfold Read.val_main_v13
  refine (concatenate_pair_apply_left (1 : Fin S10000x2.rank) _ _ concatenates_S10000x1_S10000x1_S10000x2_d1
    (ix2 u (0 : Fin 2)) rfl (ix2 u (0 : Fin 1)) (fun b => by match b with | ⟨0, _⟩ => rfl | ⟨1, _⟩ => rfl)).trans ?_
  exact v11_word u

/-- Column 1: the column index of update `u` is the word of `u`. -/
theorem v13_word1 (u : Fin 10000) : Read.val_main_v13 (F := Ideal) (ix2 u (1 : Fin 2)) = BitVec.ofNat 32 u.val := by
  unfold Read.val_main_v13
  refine (concatenate_pair_apply_right (1 : Fin S10000x2.rank) _ _ concatenates_S10000x1_S10000x1_S10000x2_d1
    (ix2 u (1 : Fin 2)) rfl rfl (ix2 u (0 : Fin 1))
    (fun b hb => by match b with | ⟨0, _⟩ => rfl | ⟨1, _⟩ => exact absurd rfl hb) rfl).trans ?_
  exact v12_word u

/-! ## The scatter that adds the self loops

The scatter has no window axes: both operand axes are inserted, and the index vector (the second axis of the index
array) names them in order. Update `u` therefore lands at the single element whose row and column are the two
signed words stored for `u`. -/

/-- The start of update `j` on operand axis `a`: the word stored at (`j`, `a`), read signed. -/
theorem sd_start (j : S10000.Idx) (idx : IVec S10000x2 32) (a : Fin S10000x10000.rank) :
    scatter_S10000x10000_S10000x2_S10000_n_01_01_1.start j idx a
      = (idx (ix2 (⟨(j 0).val, (j 0).isLt⟩ : Fin 10000) (⟨a.val, a.isLt⟩ : Fin 2))).toInt := by
  match a with
  | ⟨0, _⟩ =>
    unfold ScatterDims.start
    rw [dif_pos (show (⟨0, by decide⟩ : Fin S10000x10000.rank) ∈ scatter_S10000x10000_S10000x2_S10000_n_01_01_1.scatterDimsToOperandDims by decide)]
    exact congrArg (fun i => (idx i).toInt) (funext fun b => Fin.ext (by match b with | ⟨0, _⟩ => rfl | ⟨1, _⟩ => rfl))
  | ⟨1, _⟩ =>
    unfold ScatterDims.start
    rw [dif_pos (show (⟨1, by decide⟩ : Fin S10000x10000.rank) ∈ scatter_S10000x10000_S10000x2_S10000_n_01_01_1.scatterDimsToOperandDims by decide)]
    exact congrArg (fun i => (idx i).toInt) (funext fun b => Fin.ext (by match b with | ⟨0, _⟩ => rfl | ⟨1, _⟩ => rfl))

/-- No operand axis is a window axis: the window coordinate is zero. -/
theorem sd_window (j : S10000.Idx) (a : Fin S10000x10000.rank) :
    scatter_S10000x10000_S10000x2_S10000_n_01_01_1.window j a = 0 := by
  unfold ScatterDims.window
  have e : scatter_S10000x10000_S10000x2_S10000_n_01_01_1.sKept = [] := by decide
  exact dif_neg (by rw [e]; exact List.not_mem_nil)

/-- With the word of `u` stored in both columns for update `u`, update `j` lands on the diagonal element (`j`, `j`). -/
theorem sd_result (j : S10000.Idx) (idx : IVec S10000x2 32)
    (h0 : ∀ u : Fin 10000, idx (ix2 u (0 : Fin 2)) = BitVec.ofNat 32 u.val)
    (h1 : ∀ u : Fin 10000, idx (ix2 u (1 : Fin 2)) = BitVec.ofNat 32 u.val) :
    scatter_S10000x10000_S10000x2_S10000_n_01_01_1.resultIdx? j idx
      = some (ix2 (⟨(j 0).val, (j 0).isLt⟩ : Fin 10000) (⟨(j 0).val, (j 0).isLt⟩ : Fin 10000)) := by
  have hj : (j 0).val < 10000 := (j 0).isLt
  have hs : ∀ a, scatter_S10000x10000_S10000x2_S10000_n_01_01_1.start j idx a
      + scatter_S10000x10000_S10000x2_S10000_n_01_01_1.window j a = ((j 0).val : Int) := by
    intro a
    rw [sd_start, sd_window]
    match a with
    | ⟨0, _⟩ =>
      show (idx (ix2 (⟨(j 0).val, hj⟩ : Fin 10000) (0 : Fin 2))).toInt + ((0 : Nat) : Int) = _
      rw [h0, toInt_word _ hj]; simp
    | ⟨1, _⟩ =>
      show (idx (ix2 (⟨(j 0).val, hj⟩ : Fin 10000) (1 : Fin 2))).toInt + ((0 : Nat) : Int) = _
      rw [h1, toInt_word _ hj]; simp
  unfold ScatterDims.resultIdx?
  rw [dif_pos (fun a => by
    rw [hs a]
    refine ⟨by omega, ?_⟩
    match a with
    | ⟨0, _⟩ => show ((j 0).val : Int) < ((10000 : Nat) : Int); omega
    | ⟨1, _⟩ => show ((j 0).val : Int) < ((10000 : Nat) : Int); omega)]
  refine congrArg some (funext fun a => Fin.ext ?_)
  show (scatter_S10000x10000_S10000x2_S10000_n_01_01_1.start j idx a
      + scatter_S10000x10000_S10000x2_S10000_n_01_01_1.window j a).toNat = _
  rw [hs a, Int.toNat_natCast]
  match a with
  | ⟨0, _⟩ => rfl
  | ⟨1, _⟩ => rfl

/-- The scatter-add of `upd` at the index pairs (`u`, `u`): the operand, with `upd u` added at the diagonal element
    (`u`, `u`) and nothing elsewhere. -/
theorem scatter_diag (x : S10000x10000.Idx → EReal) (idx : IVec S10000x2 32) (upd : S10000.Idx → EReal)
    (h0 : ∀ u : Fin 10000, idx (ix2 u (0 : Fin 2)) = BitVec.ofNat 32 u.val)
    (h1 : ∀ u : Fin 10000, idx (ix2 u (1 : Fin 2)) = BitVec.ofNat 32 u.val) (p q : Fin 10000) :
    Ideal.hostScatterAdd scatter_S10000x10000_S10000x2_S10000_n_01_01_1 x idx upd (ix2 p q)
      = x (ix2 p q) + (if p = q then upd (ix1 p) else 0) := by
  unfold Ideal.hostScatterAdd
  refine congrArg (x (ix2 p q) + ·) ?_
  have key : ∀ j : S10000.Idx,
      (scatter_S10000x10000_S10000x2_S10000_n_01_01_1.resultIdx? j idx = some (ix2 p q)) ↔ (j = ix1 p ∧ p = q) := by
    intro j
    rw [sd_result j idx h0 h1, Option.some_inj]
    constructor
    · intro h
      have hp : (j 0).val = p.val := congrArg (fun i : S10000x10000.Idx => (i 0).val) h
      have hq : (j 0).val = q.val := congrArg (fun i : S10000x10000.Idx => (i 1).val) h
      exact ⟨funext fun a => Fin.ext (by match a with | ⟨0, _⟩ => exact hp), Fin.ext (hp.symm.trans hq)⟩
    · rintro ⟨rfl, rfl⟩; rfl
  rw [Finset.filter_congr (fun j _ => key j)]
  by_cases hpq : p = q
  · subst hpq
    simp only [and_true, if_true]
    rw [Finset.filter_eq', if_pos (Finset.mem_univ _), Finset.sum_singleton]
  · simp only [hpq, and_false, if_false]
    rw [Finset.filter_false, Finset.sum_empty]

/-! ## The normalised adjacency -/

/-- The update array is one everywhere. -/
theorem v14_one (p : Fin 10000) : Read.val_main_v14 (F := Ideal) (ix1 p) = one := by
  rw [Read.val_main_v14_apply, Read.val_main_cst_apply]; rfl

/-- The scatter's result: the adjacency with a one added on the diagonal. -/
theorem v15_selfLoop (x1 : S10000x10000.Idx → EReal) (p q : Fin 10000) :
    Read.val_main_v15 (F := Ideal) x1 (ix2 p q) = selfLoop (mat x1) p q := by
  unfold Read.val_main_v15
  have h0 := v13_word0
  have h1 := v13_word1
  have hu : ∀ u : Fin 10000, Read.val_main_v14 (F := Ideal) (ix1 u) = one := v14_one
  generalize Read.val_main_v13 (F := Ideal) = idx at h0 h1
  generalize Read.val_main_v14 (F := Ideal) = upd at hu
  simp only [Host.scatterAdd, Ideal.hostScatterAdd_def]
  rw [scatter_diag x1 idx upd h0 h1 p q, hu]
  rfl

/-- Its row sums, taken from zero: the degrees. -/
theorem v16_deg (x1 : S10000x10000.Idx → EReal) (p : Fin 10000) :
    Read.val_main_v16 (F := Ideal) x1 (ix1 p) = degR (mat x1) p := by
  rw [Read.val_main_v16_apply, Read.val_main_cst_3_apply]
  show Ideal.ofBits .f32 0x00000000#32 + _ = _
  rw [Ideal.ofBits_zero_f32, zero_add]
  unfold degR
  refine Finset.sum_congr rfl fun k _ => ?_
  have e : Read.idx_main_v16 (ix1 p) k = ix2 p k :=
    funext fun a => Fin.ext (by match a with | ⟨0, _⟩ => rfl | ⟨1, _⟩ => rfl)
  rw [e, v15_selfLoop]

/-- The inverse square root of the degree held at or above the floor: the node factor. -/
theorem v19_dR (x1 : S10000x10000.Idx → EReal) (p : Fin 10000) :
    Read.val_main_v19 (F := Ideal) x1 (ix1 p) = dR (mat x1) p := by
  rw [Read.val_main_v19_apply, Read.val_main_v18_apply, Read.val_main_v17_apply, Read.val_main_cst_4_apply, v16_deg]
  rfl

/-- Each entry scaled by its row's and its column's node factor: the normalised adjacency. -/
theorem v25_normAdj (x1 : S10000x10000.Idx → EReal) (p q : Fin 10000) :
    Read.val_main_v25 (F := Ideal) x1 (ix2 p q) = normAdj (mat x1) p q := by
  rw [Read.val_main_v25_apply, Read.val_main_v22_apply, Read.val_main_v21_apply, Read.val_main_v20_apply,
    Read.val_main_v24_apply, Read.val_main_v23_apply]
  have e1 : Read.idx_main_v20 (Read.idx_main_v21 (ix2 p q)) = ix1 p :=
    funext fun a => Fin.ext (by match a with | ⟨0, _⟩ => rfl)
  have e2 : Read.idx_main_v23 (Read.idx_main_v24 (ix2 p q)) = ix1 q :=
    funext fun a => Fin.ext (by match a with | ⟨0, _⟩ => rfl)
  rw [e1, e2, v19_dR, v19_dR, v15_selfLoop]
  rfl

/-! ## The first layer -/

/-- The features times the first weights. -/
theorem v26_mm (x0 : S10000x10000.Idx → EReal) (x2 : S10000x200.Idx → EReal) (p : Fin 10000) (k : Fin 200) :
    Read.val_main_v26 (F := Ideal) x0 x2 (ix2 p k) = mm (mat x0) (mat x2) p k := by
  rw [Read.val_main_v26_apply]
  show _ = ∑ j, mat x0 p j * mat x2 j k
  refine Finset.sum_congr rfl fun j _ => ?_
  have el : Read.lidx_main_v26 (ix2 p k) j = ix2 p j :=
    funext fun a => Fin.ext (by match a with | ⟨0, _⟩ => rfl | ⟨1, _⟩ => rfl)
  have er : Read.ridx_main_v26 (ix2 p k) j = ix2 j k :=
    funext fun a => Fin.ext (by match a with | ⟨0, _⟩ => rfl | ⟨1, _⟩ => rfl)
  rw [el, er]; rfl

/-- The normalised adjacency times that. -/
theorem v27_mm (x0 x1 : S10000x10000.Idx → EReal) (x2 : S10000x200.Idx → EReal) (p : Fin 10000) (k : Fin 200) :
    Read.val_main_v27 (F := Ideal) x0 x1 x2 (ix2 p k) = mm (normAdj (mat x1)) (mm (mat x0) (mat x2)) p k := by
  rw [Read.val_main_v27_apply]
  show _ = ∑ j, normAdj (mat x1) p j * mm (mat x0) (mat x2) j k
  refine Finset.sum_congr rfl fun j _ => ?_
  have el : Read.lidx_main_v27 (ix2 p k) j = ix2 p j :=
    funext fun a => Fin.ext (by match a with | ⟨0, _⟩ => rfl | ⟨1, _⟩ => rfl)
  have er : Read.ridx_main_v27 (ix2 p k) j = ix2 j k :=
    funext fun a => Fin.ext (by match a with | ⟨0, _⟩ => rfl | ⟨1, _⟩ => rfl)
  rw [el, er, v25_normAdj, v26_mm]

/-- The bias added and the negative part cut off: the hidden layer. -/
theorem v31_hid (x0 x1 : S10000x10000.Idx → EReal) (x2 : S10000x200.Idx → EReal) (x3 : S200.Idx → EReal)
    (p : Fin 10000) (k : Fin 200) :
    Read.val_main_v31 (F := Ideal) x0 x1 x2 x3 (ix2 p k) = hidR (mat x0) (mat x1) (mat x2) (col x3) p k := by
  rw [Read.val_main_v31_apply, Read.val_main_v30_apply, Read.val_main_v29_apply, Read.val_main_v28_apply,
    Read.val_main_call0_v0_apply, Read.val_main_call0_cst_apply, v27_mm]
  have e : Read.idx_main_v28 (Read.idx_main_v29 (ix2 p k)) = ix1 k :=
    funext fun a => Fin.ext (by match a with | ⟨0, _⟩ => rfl)
  rw [e]
  show max (_ + x3 (ix1 k)) (Ideal.ofBits .f32 0x00000000#32) = _
  rw [Ideal.ofBits_zero_f32]; rfl

/-! ## The second layer -/

section SecondLayer
variable (x0 x1 : S10000x10000.Idx → EReal) (x2 : S10000x200.Idx → EReal) (x3 : S200.Idx → EReal)
  (x4 : S200x128.Idx → EReal) (x5 : S128.Idx → EReal)

/-- The hidden layer times the second weights. -/
theorem v32_mm (p : Fin 10000) (q : Fin 128) :
    Read.val_main_v32 (F := Ideal) x0 x1 x2 x3 x4 (ix2 p q) = mm (hidR (mat x0) (mat x1) (mat x2) (col x3)) (mat x4) p q := by
  rw [Read.val_main_v32_apply]
  show _ = ∑ j, hidR (mat x0) (mat x1) (mat x2) (col x3) p j * mat x4 j q
  refine Finset.sum_congr rfl fun j _ => ?_
  have el : Read.lidx_main_v32 (ix2 p q) j = ix2 p j :=
    funext fun a => Fin.ext (by match a with | ⟨0, _⟩ => rfl | ⟨1, _⟩ => rfl)
  have er : Read.ridx_main_v32 (ix2 p q) j = ix2 j q :=
    funext fun a => Fin.ext (by match a with | ⟨0, _⟩ => rfl | ⟨1, _⟩ => rfl)
  rw [el, er, v31_hid]; rfl

/-- The normalised adjacency times that. -/
theorem v33_mm (p : Fin 10000) (q : Fin 128) :
    Read.val_main_v33 (F := Ideal) x0 x1 x2 x3 x4 (ix2 p q)
      = mm (normAdj (mat x1)) (mm (hidR (mat x0) (mat x1) (mat x2) (col x3)) (mat x4)) p q := by
  rw [Read.val_main_v33_apply]
  show _ = ∑ j, normAdj (mat x1) p j * mm (hidR (mat x0) (mat x1) (mat x2) (col x3)) (mat x4) j q
  refine Finset.sum_congr rfl fun j _ => ?_
  have el : Read.lidx_main_v33 (ix2 p q) j = ix2 p j :=
    funext fun a => Fin.ext (by match a with | ⟨0, _⟩ => rfl | ⟨1, _⟩ => rfl)
  have er : Read.ridx_main_v33 (ix2 p q) j = ix2 j q :=
    funext fun a => Fin.ext (by match a with | ⟨0, _⟩ => rfl | ⟨1, _⟩ => rfl)
  rw [el, er, v25_normAdj, v32_mm]

/-- The second bias added: the logits. -/
theorem v36_logit (p : Fin 10000) (q : Fin 128) :
    Read.val_main_v36 (F := Ideal) x0 x1 x2 x3 x4 x5 (ix2 p q) = logitR (mat x0) (mat x1) (mat x2) (col x3) (mat x4) (col x5) p q := by
  rw [Read.val_main_v36_apply, Read.val_main_v35_apply, Read.val_main_v34_apply, v33_mm]
  have e : Read.idx_main_v34 (Read.idx_main_v35 (ix2 p q)) = ix1 q :=
    funext fun a => Fin.ext (by match a with | ⟨0, _⟩ => rfl)
  rw [e]; rfl

/-! ## The softmax over each row -/

/-- Row `p` with the column `k` put back is the element (`p`, `k`). -/
theorem lift_row (h : S10000x128.Reduces [1] S10000) (p : Fin 10000) (k : Fin (S10000x128.size 1)) :
    h.lift (ix1 p) k = ix2 p (⟨k.val, k.isLt⟩ : Fin 128) := by
  funext c; apply Fin.ext
  match c with
  | ⟨0, _⟩ => rfl
  | ⟨1, _⟩ => rfl

/-- The reduction by maximum along each row, started at minus infinity: the row's maximum as a fold. -/
theorem v37_rowMax (p : Fin 10000) :
    Read.val_main_v37 (F := Ideal) x0 x1 x2 x3 x4 x5 (ix1 p) = rowMax (logitR (mat x0) (mat x1) (mat x2) (col x3) (mat x4) (col x5)) p := by
  unfold Read.val_main_v37
  have hl := v36_logit x0 x1 x2 x3 x4 x5
  generalize Read.val_main_v36 (F := Ideal) x0 x1 x2 x3 x4 x5 = y at hl
  have hr : S10000x128.Reduces [1] S10000 :=
    ⟨reducesTo_S10000x128_S10000_d1.1, Nat.one_pos, reducesTo_S10000x128_S10000_d1.2⟩
  refine (Host.reduce_eq_fold_single (FloatOps.maximumf (F := Ideal) (φ := .f32)) y _ reducesTo_S10000x128_S10000_d1 hr h_S_
    (ix1 p)).trans ?_
  have hf : (y ∘ hr.lift (ix1 p)) = fun k : Fin 128 => logitR (mat x0) (mat x1) (mat x2) (col x3) (mat x4) (col x5) p k :=
    funext fun k => (congrArg y (lift_row hr p k)).trans (hl p _)
  exact congrArg (fun f => Finset.fold max negInf f (Finset.univ : Finset (Fin 128))) hf

/-- The maximum of minus infinity and the row's maximum is the row's maximum. -/
theorem v39_rowMax (p : Fin 10000) :
    Read.val_main_v39 (F := Ideal) x0 x1 x2 x3 x4 x5 (ix1 p) = rowMax (logitR (mat x0) (mat x1) (mat x2) (col x3) (mat x4) (col x5)) p := by
  rw [Read.val_main_v39_apply, Read.val_main_v38_apply, Read.val_main_cst_6_apply, v37_rowMax]
  show max (Ideal.ofBits .f32 0xFF800000#32) _ = _
  rw [Cert.RealValued.ofBits_neg_inf]
  exact max_eq_right bot_le

/-- Each logit less its row's maximum. -/
theorem v42_shift (p : Fin 10000) (q : Fin 128) :
    Read.val_main_v42 (F := Ideal) x0 x1 x2 x3 x4 x5 (ix2 p q)
      = logitR (mat x0) (mat x1) (mat x2) (col x3) (mat x4) (col x5) p q - rowMax (logitR (mat x0) (mat x1) (mat x2) (col x3) (mat x4) (col x5)) p := by
  rw [Read.val_main_v42_apply, Read.val_main_v41_apply, Read.val_main_v40_apply, v36_logit]
  have e : Read.idx_main_v40 (Read.idx_main_v41 (ix2 p q)) = ix1 p :=
    funext fun a => Fin.ext (by match a with | ⟨0, _⟩ => rfl)
  rw [e, v39_rowMax]; rfl

/-- Its exponential. -/
theorem v43_exp (p : Fin 10000) (q : Fin 128) :
    Read.val_main_v43 (F := Ideal) x0 x1 x2 x3 x4 x5 (ix2 p q)
      = Ideal.exp (logitR (mat x0) (mat x1) (mat x2) (col x3) (mat x4) (col x5) p q - rowMax (logitR (mat x0) (mat x1) (mat x2) (col x3) (mat x4) (col x5)) p) := by
  rw [Read.val_main_v43_apply, v42_shift]; rfl

/-- The row sums of the exponentials, taken from zero. -/
theorem v44_sum (p : Fin 10000) :
    Read.val_main_v44 (F := Ideal) x0 x1 x2 x3 x4 x5 (ix1 p)
      = ∑ q' : Fin 128, Ideal.exp (logitR (mat x0) (mat x1) (mat x2) (col x3) (mat x4) (col x5) p q' - rowMax (logitR (mat x0) (mat x1) (mat x2) (col x3) (mat x4) (col x5)) p) := by
  rw [Read.val_main_v44_apply, Read.val_main_cst_7_apply]
  show Ideal.ofBits .f32 0x00000000#32 + _ = _
  rw [Ideal.ofBits_zero_f32, zero_add]
  refine Finset.sum_congr rfl fun k _ => ?_
  have e : Read.idx_main_v44 (ix1 p) k = ix2 p k :=
    funext fun a => Fin.ext (by match a with | ⟨0, _⟩ => rfl | ⟨1, _⟩ => rfl)
  rw [e, v43_exp]

end SecondLayer

/-- The reference program's result is the normalised arrangement of the graph convolution, element by element. -/
theorem ref_value (x0 x1 : S10000x10000.Idx → EReal) (x2 : S10000x200.Idx → EReal) (x3 : S200.Idx → EReal)
    (x4 : S200x128.Idx → EReal) (x5 : S128.Idx → EReal) :
    (Cert.ReferenceIdeal.Read.val_main_v47 (F := Ideal) x0 x1 x2 x3 x4 x5 : S10000x128.Idx → EReal)
      = arr2 (outR (mat x0) (mat x1) (mat x2) (col x3) (mat x4) (col x5)) := by
  funext i
  obtain ⟨p, q, rfl⟩ : ∃ (p : Fin 10000) (q : Fin 128), i = ix2 p q := ⟨i 0, i 1, eq_ix2 i⟩
  rw [Read.val_main_v47_apply, Read.val_main_v46_apply, Read.val_main_v45_apply, v43_exp]
  have e : Read.idx_main_v45 (Read.idx_main_v46 (ix2 p q)) = ix1 p :=
    funext fun a => Fin.ext (by match a with | ⟨0, _⟩ => rfl)
  rw [e, v44_sum]
  rfl

end Cert.ReferenceIdeal.GcnRef
end
-- ==== Proof.lean ====
/-
  A two-layer graph convolution over a dense adjacency, computed in three grid launches, against its plain reference.

  With `Â = A + I`, `d i = (max (Σ_j Â i j) ε)^(-1/2)` and `N i j = Â i j · d i · d j`, the reference computes
  `softmax (N·(max (N·(X·W₁) + b₁) 0 · W₂) + b₂)` row by row. The kernel never forms `N`: its first launch computes the
  node factor `s i = (max ((Σ_j A i j) + 1) ε)^(-1/2)` and the pre-scaled features `(X·W₁)·s`; its second aggregates
  them over the raw adjacency, adds each node's own row, scales by `s`, adds the bias, takes the positive part,
  multiplies by `W₂` and pre-scales again; its third aggregates, scales, adds the bias and takes the row-wise softmax.
  Each launch works on blocks of 200 rows; the blocks of each output tile its array.

  The two programs end with the same array because `Σ_j (Â i j · d i · d j) · M j k = ((Σ_j A i j · (M j k · s j)) + M i k · s i) · s i`
  whenever every entry is a real number (a real factor distributes over a finite sum of reals), and the precondition
  says exactly that of the arguments; the node factor of a real adjacency is a positive real, the hidden layer of real
  data is real, and the softmax is the same function applied to equal logits.

  The pieces: `GcnSpec` states both arrangements; `GcnAlgebra` proves them equal on real data; `FiniteArgs` reads the
  precondition; `KerRegion0/1/2` say what each launch's output arrays hold; `KerRun` and `KerFold` run the three
  launches and compose them; `RefValue` reads the reference's run.
-/
import proofs.«114447_g24318104830572_cont_9to1_452_2_alg».proof.Defs
import proofs.«114447_g24318104830572_cont_9to1_452_2_alg».proof.Proof.Gen.Kernel
import proofs.«114447_g24318104830572_cont_9to1_452_2_alg».proof.Proof.Gen.Kernel.Skeleton
import proofs.«114447_g24318104830572_cont_9to1_452_2_alg».proof.Proof.Gen.Kernel.Launch
import proofs.«114447_g24318104830572_cont_9to1_452_2_alg».proof.Proof.Gen.Kernel.Points
import proofs.«114447_g24318104830572_cont_9to1_452_2_alg».proof.Proof.Gen.Kernel.Frame
import proofs.«114447_g24318104830572_cont_9to1_452_2_alg».proof.Proof.Gen.KernelIdeal
import proofs.«114447_g24318104830572_cont_9to1_452_2_alg».proof.Proof.Gen.KernelIdeal.Skeleton
import proofs.«114447_g24318104830572_cont_9to1_452_2_alg».proof.Proof.Gen.KernelIdeal.Launch
import proofs.«114447_g24318104830572_cont_9to1_452_2_alg».proof.Proof.Gen.KernelIdeal.Points
import proofs.«114447_g24318104830572_cont_9to1_452_2_alg».proof.Proof.Gen.KernelIdeal.Frame
import proofs.«114447_g24318104830572_cont_9to1_452_2_alg».proof.Proof.Gen.ReferenceIdeal
import proofs.«114447_g24318104830572_cont_9to1_452_2_alg».proof.Proof.Gen.Pre_finite_inputs
import proofs.«114447_g24318104830572_cont_9to1_452_2_alg».proof.Proof.Gen.ReferenceIdeal.Run
import proofs.«114447_g24318104830572_cont_9to1_452_2_alg».proof.Proof.Gen.ReferenceIdeal.Read
import proofs.«114447_g24318104830572_cont_9to1_452_2_alg».proof.Proof.GcnSpec
import proofs.«114447_g24318104830572_cont_9to1_452_2_alg».proof.Proof.GcnAlgebra
import proofs.«114447_g24318104830572_cont_9to1_452_2_alg».proof.Proof.FiniteArgs
import proofs.«114447_g24318104830572_cont_9to1_452_2_alg».proof.Proof.KerRun
import proofs.«114447_g24318104830572_cont_9to1_452_2_alg».proof.Proof.KerFold
import proofs.«114447_g24318104830572_cont_9to1_452_2_alg».proof.Proof.KerRegion0
import proofs.«114447_g24318104830572_cont_9to1_452_2_alg».proof.Proof.KerRegion1
import proofs.«114447_g24318104830572_cont_9to1_452_2_alg».proof.Proof.KerRegion2
import proofs.«114447_g24318104830572_cont_9to1_452_2_alg».proof.Proof.RefValue
import Idealize.ShloMosaic.Adequacy
import Idealize.ShloMosaic.Init

noncomputable section

namespace Cert.Proof.GcnClaims

open Idealize.ShloMosaic Idealize.ShloMosaic.TcCoe Idealize.SL.Sem Cert.Gcn

/-- The word-level kernel runs and leaves its arguments as launched: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a host program: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The idealized kernel's result array, after its run, is the aggregated arrangement of the six arguments: the three
    launches' output arrays composed along the program's fold of buffer contents. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W5 m ρ c (Proc.devRef .tc Cert.KernelIdeal.main_v4) : Cert.KernelIdeal.S10000x128.Idx → EReal)
      = arr2 (outK (mat (m ((c : Thread Cert.KernelIdeal.nD Cert.KernelIdeal.τ).loc Cert.KernelIdeal.main_arg0) : Cert.KernelIdeal.S10000x10000.Idx → EReal))
          (mat (m ((c : Thread Cert.KernelIdeal.nD Cert.KernelIdeal.τ).loc Cert.KernelIdeal.main_arg1) : Cert.KernelIdeal.S10000x10000.Idx → EReal))
          (mat (m ((c : Thread Cert.KernelIdeal.nD Cert.KernelIdeal.τ).loc Cert.KernelIdeal.main_arg2) : Cert.KernelIdeal.S10000x200.Idx → EReal))
          (col (m ((c : Thread Cert.KernelIdeal.nD Cert.KernelIdeal.τ).loc Cert.KernelIdeal.main_arg3) : Cert.KernelIdeal.S200.Idx → EReal))
          (mat (m ((c : Thread Cert.KernelIdeal.nD Cert.KernelIdeal.τ).loc Cert.KernelIdeal.main_arg4) : Cert.KernelIdeal.S200x128.Idx → EReal))
          (col (m ((c : Thread Cert.KernelIdeal.nD Cert.KernelIdeal.τ).loc Cert.KernelIdeal.main_arg5) : Cert.KernelIdeal.S128.Idx → EReal))) :=
  Cert.KernelIdeal.GcnFold.result_eq m ρ c
    (Cert.KernelIdeal.GcnRegion0.arr_s (Cert.KernelIdeal.Gen.V0 m ρ) c)
    (Cert.KernelIdeal.GcnRegion0.arr_z1 (Cert.KernelIdeal.Gen.V0 m ρ) c)
    (Cert.KernelIdeal.GcnRegion1.arr_z2 (Cert.KernelIdeal.Gen.V2 m ρ) c)
    (Cert.KernelIdeal.GcnRegion2.arr_out (Cert.KernelIdeal.Gen.V4 m ρ) c)

/-- At the exact instance both programs end with the same result array. The kernel's is the aggregated arrangement
    of its arguments, the reference's the normalised arrangement of the same arguments; the precondition makes every
    entry of every argument a real number, and on real-valued data the two arrangements are one function. -/
theorem algebraic : Cert.algebraic_KernelIdeal_ReferenceIdeal := by
  intro m ρ m' ρ' hpre hagree
  refine ⟨fun c => arr2 (outK
      (mat (m ((c : Thread Cert.KernelIdeal.nD Cert.KernelIdeal.τ).loc Cert.KernelIdeal.main_arg0) : Cert.KernelIdeal.S10000x10000.Idx → EReal))
      (mat (m ((c : Thread Cert.KernelIdeal.nD Cert.KernelIdeal.τ).loc Cert.KernelIdeal.main_arg1) : Cert.KernelIdeal.S10000x10000.Idx → EReal))
      (mat (m ((c : Thread Cert.KernelIdeal.nD Cert.KernelIdeal.τ).loc Cert.KernelIdeal.main_arg2) : Cert.KernelIdeal.S10000x200.Idx → EReal))
      (col (m ((c : Thread Cert.KernelIdeal.nD Cert.KernelIdeal.τ).loc Cert.KernelIdeal.main_arg3) : Cert.KernelIdeal.S200.Idx → EReal))
      (mat (m ((c : Thread Cert.KernelIdeal.nD Cert.KernelIdeal.τ).loc Cert.KernelIdeal.main_arg4) : Cert.KernelIdeal.S200x128.Idx → EReal))
      (col (m ((c : Thread Cert.KernelIdeal.nD Cert.KernelIdeal.τ).loc Cert.KernelIdeal.main_arg5) : Cert.KernelIdeal.S128.Idx → EReal))), ?_, ?_⟩
  · exact (θ_run Cert.KernelIdeal.defs _ _).mono (fun r h c => ⟨(h c).1.trans (kernel_value m ρ c), (h c).2⟩)
      (Cert.KernelIdeal.GcnRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5⟩ := Cert.Gcn.FiniteArgs.args_real m hpre c
    obtain ⟨e0, e1, e2, e3, e4, e5⟩ := hagree c
    rw [Cert.ReferenceIdeal.Read.val_main_v47_eq, e0, e1, e2, e3, e4, e5]
    refine (Cert.ReferenceIdeal.GcnRef.ref_value _ _ _ _ _ _).trans (congrArg arr2 ?_)
    exact (outK_eq_outR _ _ _ _ _ _ (fun i j => h0 _) (fun i j => h1 _) (fun i j => h2 _) (fun k => h3 _)
      (fun i j => h4 _) (fun q => h5 _)).symm

end Cert.Proof.GcnClaims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  GcnClaims.frame_kernel, GcnClaims.frame_kernelIdeal, GcnClaims.frame_reference, GcnClaims.preserves, GcnClaims.algebraic⟩

end Cert.Proof

end
